-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S512x512 : Shape := ⟨2, ![512, 512]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8x32x512x512 .f32) (main_arg1 : FVec F S512x512 .f32) (main_arg2 : FVec F S512x512 .f32) (main_arg3 : FVec F S512x512 .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8x32x512x512 : Shape := ⟨4, ![8, 32, 512, 512]⟩
abbrev S512x512 : Shape := ⟨2, ![512, 512]⟩
abbrev S256x512x512 : Shape := ⟨3, ![256, 512, 512]⟩
abbrev S_ : Shape := ⟨0, ![]⟩
abbrev S256x512 : Shape := ⟨2, ![256, 512]⟩
abbrev S8x512x512 : Shape := ⟨3, ![8, 512, 512]⟩
abbrev S8x512 : Shape := ⟨2, ![8, 512]⟩
abbrev S4096x512 : Shape := ⟨2, ![4096, 512]⟩
abbrev S1x512x512 : Shape := ⟨3, ![1, 512, 512]⟩
abbrev S1x512 : Shape := ⟨2, ![1, 512]⟩
abbrev S1 : Shape := ⟨1, ![1]⟩
abbrev S1x1 : Shape := ⟨2, ![1, 1]⟩
abbrev S512 : Shape := ⟨1, ![512]⟩
abbrev S8x32x512 : Shape := ⟨3, ![8, 32, 512]⟩

abbrev nBuf : Space → Nat
  | .hbm => 14
  | .vmem => 8
  | .smem => 0
  | _ => 0

abbrev bufTy : (tb : Table) → Fin (tcTables nBuf tb) → BufTy
  | .hbm, ⟨0, _⟩ => ⟨S8x32x512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S256x512x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S256x512, .f32⟩
  | .hbm, ⟨13, _⟩ => ⟨S8x32x512, .f32⟩
  | .local _ .vmem, ⟨0, _⟩ => ⟨S8x512x512, .f32⟩
  | .local _ .vmem, ⟨1, _⟩ => ⟨S8x512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512x512, .bf16⟩
  | .local _ .vmem, ⟨7, _⟩ => ⟨S8x512, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v17 : Index := Scalar.indexCast arg7
  let c0_14 : Index := 0#32
  let c0_15 : Index := 0#32
  ![v17.toNat, 0, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let v38 : Index := Scalar.indexCast arg7
  let c0_23 : Index := 0#32
  ![v38.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x32x512x512_S256x512x512 : S8x32x512x512.ShapeCasts S256x512x512
  transposes_S512x512_S512x512_1_0 : S512x512.Transposes [1, 0] S512x512
  bcast_S_S512x512 : S_.BroadcastsInDim S512x512 (![] : Fin 0 → Fin S512x512.rank)
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  shapeCasts_S8x512x512_S4096x512 : S8x512x512.ShapeCasts S4096x512
  shapeCasts_S4096x512_S8x512x512 : S4096x512.ShapeCasts S8x512x512
  packedbf16_S8x512x512_S8x512x512_0_0_0 : (Rect.unit (s := S8x512x512) ![0, 0, 0] S8x512x512.size inb_S8x512x512_S8x512x512_0_0_0).PackedRows (EltTy.packing .bf16)
  h_S1x512x512 : 0 < S1x512x512.numel
  shapeCasts_S1x512x512_S512x512 : S1x512x512.ShapeCasts S512x512
  slices_S512x512_o0_0_S1x512 : S512x512.Slices ![0, 0] S1x512
  reduces_S1x512_S1 : S1x512.Reduces [1] S1
  shapeCasts_S1_S1x1 : S1.ShapeCasts S1x1
  broadcasts_S1x1_S1x512 : S1x1.Broadcasts S1x512
  shapeCasts_S1x512_S512 : S1x512.ShapeCasts S512
  h_S1x512 : 0 < S1x512.numel
  shapeCasts_S512_S1x512 : S512.ShapeCasts S1x512
  inb_S8x512_S8x512_0_0 : ∀ a, (![0, 0] : Fin 2 → Nat) a + S8x512.size a ≤ S8x512.size a
  h_S8x512 : 0 < S8x512.numel
  shapeCasts_S256x512_S8x32x512 : S256x512.ShapeCasts S8x32x512
  dot_S512x512_S512x512_S512x512_1_0_0_1_n_n_wf : DotDims.WF S512x512 S512x512 S512x512 [1] [0] [0] [1] [] []
  dot_S4096x512_S512x512_S4096x512_1_1_0_0_n_n_wf : DotDims.WF S4096x512 S512x512 S4096x512 [1] [1] [0] [0] [] []
  dot_S1x512_S512x512_S1x512_1_0_0_1_n_n_wf : DotDims.WF S1x512 S512x512 S1x512 [1] [0] [0] [1] [] []
  dot_S1x512_S512x512_S1x512_1_1_0_0_n_n_wf : DotDims.WF S1x512 S512x512 S1x512 [1] [1] [0] [0] [] []
  hrank0 : 0 < grid0.rank
  k0_t1_ok : k0_t1_loop.OK
  k0_off1_inb : ∀ k0_t1 : Fin k0_t1_loop.trips, ∀ a, (k0_off1 k0_t1) a + S1x512x512.size a ≤ S8x512x512.size a
  k0_off2_inb : ∀ k0_t1 : Fin k0_t1_loop.trips, ∀ a, (k0_off2 k0_t1) a + S1x512.size a ≤ S8x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S256x512x512.size a
  hwx0_0 : ∀ i : grid0.Coords, EltTy.bits .f32 = 32 ∨ (Rect.block (s := S256x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S256x512.size a
  hwx0_3 : ∀ i : grid0.Coords, EltTy.bits .f32 = 32 ∨ (Rect.block (s := S256x512) S8x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x512x512 : Shape := ⟨4, ![8, 32, 512, 512]⟩
abbrev S512x512 : Shape := ⟨2, ![512, 512]⟩
abbrev S_ : Shape := ⟨0, ![]⟩
abbrev S8x32x512 : Shape := ⟨3, ![8, 32, 512]⟩
abbrev S8x32x512x1 : Shape := ⟨4, ![8, 32, 512, 1]⟩
abbrev S8x32x1x512 : Shape := ⟨4, ![8, 32, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x32x512x512, .f32⟩
  | .hbm, ⟨8, _⟩ => ⟨S8x32x512x512, .f32⟩
  | .hbm, ⟨9, _⟩ => ⟨S8x32x512x512, .f32⟩
  | .hbm, ⟨10, _⟩ => ⟨S8x32x512x512, .f32⟩
  | .hbm, ⟨11, _⟩ => ⟨S8x32x512x512, .f32⟩
  | .hbm, ⟨12, _⟩ => ⟨S8x32x512x512, .f32⟩
  | .hbm, ⟨13, _⟩ => ⟨S_, .f32⟩
  | .hbm, ⟨14, _⟩ => ⟨S8x32x512, .f32⟩
  | .hbm, ⟨15, _⟩ => ⟨S_, .f32⟩
  | .hbm, ⟨16, _⟩ => ⟨S8x32x512, .f32⟩
  | .hbm, ⟨17, _⟩ => ⟨S8x32x512, .f32⟩
  | .hbm, ⟨18, _⟩ => ⟨S8x32x512x1, .f32⟩
  | .hbm, ⟨19, _⟩ => ⟨S8x32x512x512, .f32⟩
  | .hbm, ⟨20, _⟩ => ⟨S8x32x512x512, .f32⟩
  | .hbm, ⟨21, _⟩ => ⟨S8x32x512x512, .f32⟩
  | .hbm, ⟨22, _⟩ => ⟨S_, .f32⟩
  | .hbm, ⟨23, _⟩ => ⟨S8x32x512, .f32⟩
  | .hbm, ⟨24, _⟩ => ⟨S8x32x512x1, .f32⟩
  | .hbm, ⟨25, _⟩ => ⟨S8x32x512x512, .f32⟩
  | .hbm, ⟨26, _⟩ => ⟨S8x32x512x512, .f32⟩
  | .hbm, ⟨27, _⟩ => ⟨S8x32x512x512, .f32⟩
  | .hbm, ⟨28, _⟩ => ⟨S8x32x1x512, .f32⟩
  | .hbm, ⟨29, _⟩ => ⟨S8x32x512, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S8x32x512x512 : S_.BroadcastsInDim S8x32x512x512 (![] : Fin 0 → Fin S8x32x512x512.rank)
  reducesTo_S8x32x512x512_S8x32x512_d3 : S8x32x512x512.ReducesTo [3] S8x32x512
  h_S_ : 0 < S_.numel
  bcast_S_S8x32x512 : S_.BroadcastsInDim S8x32x512 (![] : Fin 0 → Fin S8x32x512.rank)
  bcast_S8x32x512_S8x32x512x1_0_1_2 : S8x32x512.BroadcastsInDim S8x32x512x1 (![0, 1, 2] : Fin 3 → Fin S8x32x512x1.rank)
  bcast_S8x32x512x1_S8x32x512x512_0_1_2_3 : S8x32x512x1.BroadcastsInDim S8x32x512x512 (![0, 1, 2, 3] : Fin 4 → Fin S8x32x512x512.rank)
  slices_S8x32x512x512_S8x32x1x512_0_0_0_0 : S8x32x512x512.Slices ![0, 0, 0, 0] S8x32x1x512
  shapeCasts_S8x32x1x512_S8x32x512 : S8x32x1x512.ShapeCasts S8x32x512
  dot_S8x32x512x512_S512x512_S8x32x512x512_3_1_012_0_n_n_wf : DotDims.WF S8x32x512x512 S512x512 S8x32x512x512 [3] [1] [0, 1, 2] [0] [] []
  dot_S8x32x512x512_S8x32x512x512_S8x32x512x512_3_3_2_2_01_01_wf : DotDims.WF S8x32x512x512 S8x32x512x512 S8x32x512x512 [3] [3] [2] [2] [0, 1] [0, 1]
  dot_S8x32x512x512_S8x32x512x512_S8x32x512x512_3_2_2_3_01_01_wf : DotDims.WF S8x32x512x512 S8x32x512x512 S8x32x512x512 [3] [2] [2] [3] [0, 1] [0, 1]

variable [Facts₀]

def dot_S8x32x512x512_S512x512_S8x32x512x512_3_1_012_0_n_n : DotDims S8x32x512x512 S512x512 S8x32x512x512 where
  lhsContracting := [3]
  rhsContracting := [1]
  lhsNonContracting := [0, 1, 2]
  rhsNonContracting := [0]
  lhsBatch := []
  rhsBatch := []
  wf := dot_S8x32x512x512_S512x512_S8x32x512x512_3_1_012_0_n_n_wf
def dot_S8x32x512x512_S8x32x512x512_S8x32x512x512_3_3_2_2_01_01 : DotDims S8x32x512x512 S8x32x512x512 S8x32x512x512 where
  lhsContracting := [3]
  rhsContracting := [3]
  lhsNonContracting := [2]
  rhsNonContracting := [2]
  lhsBatch := [0, 1]
  rhsBatch := [0, 1]
  wf := dot_S8x32x512x512_S8x32x512x512_S8x32x512x512_3_3_2_2_01_01_wf
def dot_S8x32x512x512_S8x32x512x512_S8x32x512x512_3_2_2_3_01_01 : DotDims S8x32x512x512 S8x32x512x512 S8x32x512x512 where
  lhsContracting := [3]
  rhsContracting := [2]
  lhsNonContracting := [2]
  rhsNonContracting := [3]
  lhsBatch := [0, 1]
  rhsBatch := [0, 1]
  wf := dot_S8x32x512x512_S8x32x512x512_S8x32x512x512_3_2_2_3_01_01_wf

class Facts : Prop extends Facts₀ where

variable [Facts]
-- ==== Proof.RefImports.lean ====
/-
  The reference program's run read one operation at a time: this module only brings the generated run and
  its read-at-an-index lemmas into scope for the modules that state what the reference computes.
-/
import proofs.«172170_j55370718380196_2_alg».proof.Proof.Gen.ReferenceIdeal.Read
-- ==== Proof.KernelLoopRows.lean ====
/-
  The scratch rows the body's loop leaves, read back as one function.

  The loop runs 8 trips.  Trip k reads slab k of the point's input block and slab k of the kept value projection,
  computes one output row from them, and stores it as row k of a scratch buffer of 8 rows; nothing else writes that
  buffer.  After the 8 trips every row has been written exactly once, so reading the whole buffer gives, at row g and
  column o, the row computed by trip g at column o — whatever the buffer held before the loop.  The statement is about
  the list of stored pieces only, so it holds for every reading of the float operations.
-/
import proofs.«172170_j55370718380196_2_alg».proof.Proof.Gen.Kernel
import proofs.«172170_j55370718380196_2_alg».proof.Proof.Gen.Kernel.Loops
import Idealize.ShloMosaic.Lib.Pipeline.FrameBody
import Idealize.ShloMosaic.Lib.Pipeline.Value
import Idealize.ShloMosaic.Lib.ValueIdx

noncomputable section

namespace Cert.Kernel.LoopRows

open Idealize.ShloMosaic Idealize.ShloMosaic.TcCoe Idealize.ShloMosaic.ValueIdx Idealize.SL.Sem
open Cert.Kernel Cert.Kernel.Gen

variable {F : FTy → Type} [FloatOps F]

/-- The loop makes 8 trips. -/
theorem trips_eq : k0_t1_loop.trips = 8 := by decide +kernel

/-- Trip k addresses slab k of the two 3-axis buffers and row k of the scratch: the offsets in closed form. -/
theorem offsets : ∀ k : Fin k0_t1_loop.trips,
    k0_off2 k 0 = k.val ∧ k0_off2 k 1 = 0 ∧ k0_off1 k 0 = k.val ∧ k0_off1 k 1 = 0 ∧ k0_off1 k 2 = 0 := by decide +kernel

/-- The row and the column of a position of the scratch buffer, as numbers below 8 and below 512. -/
def rowOf (y : S8x512.Idx) : Fin 8 := ⟨(y 0).val, (y 0).isLt⟩
def colOf (y : S8x512.Idx) : Fin 512 := ⟨(y 1).val, (y 1).isLt⟩

section
variable (𝒱 : Variants) (c : Dev nD) (bd : Option 𝒱.V) (i : grid0.Coords) (arg1 : Memref sig .tc .vmem S8x512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512x512 .bf16) (harg5 : arg5.IsWhole) (arg6 : Memref sig .tc .vmem S8x512 .f32) (harg6 : arg6.IsWhole)
  (v2 : Vec F S512x512 .f32) (X1 : BufTy.Contents (Elt F) arg1.view.ty) (X5 : BufTy.Contents (Elt F) arg5.view.ty)

/-- The row trip k stores: the body's row value of the two slabs it loads. -/
def tripRow (k : Fin k0_t1_loop.trips) : FVec F S1x512 .f32 :=
  k0_pay2 v2
    (View.readAt (Elt F) arg1.view (Rect.unit (s := S8x512x512) (k0_off1 k) S1x512x512.size (k0_off1_inb k)).toLoadRect X1)
    (View.readAt (Elt F) arg5.view (Rect.unit (s := S8x512x512) (k0_off1 k) S1x512x512.size (k0_off1_inb k)).toLoadRect X5)

/-- Trip k's stored pieces: one, the row at offset k. -/
theorem tripL_eq (k : Fin k0_t1_loop.trips) :
    tripL_k0_t1 (F := F) 𝒱 c bd i arg1 harg1 arg2 harg2 arg3 harg3 arg4 harg4 arg5 harg5 arg6 harg6 v2 X1 X5 k
      = [⟨Rect.unit (s := S8x512) (k0_off2 k) S1x512.size (k0_off2_inb k), tripRow arg1 arg5 v2 X1 X5 k⟩] := by
  unfold tripL_k0_t1 trip_k0_t1
  rfl

/-- The whole scratch buffer after the loop, as one function of the position. -/
def rows : S8x512.Idx → Elt F .f32 := fun y =>
  tripRow arg1 arg5 v2 X1 X5 ⟨(rowOf y).val, by rw [trips_eq]; exact (rowOf y).isLt⟩ (ix2 (0 : Fin 1) (colOf y))

/-- A row read at a trip and a position that are equal to given ones. -/
theorem tripRow_congr (k k' : Fin k0_t1_loop.trips) (x x' : S1x512.Idx) (hk : k' = k) (hx : x' = x) :
    tripRow arg1 arg5 v2 X1 X5 k' x' = tripRow arg1 arg5 v2 X1 X5 k x := by subst hk; subst hx; rfl

/-- Every piece stored by the first n trips is a restriction of that one function. -/
theorem pb_pieces : ∀ n, n ≤ k0_t1_loop.trips →
    ∀ p ∈ pb_k0_t1 (F := F) 𝒱 c bd i arg1 harg1 arg2 harg2 arg3 harg3 arg4 harg4 arg5 harg5 arg6 harg6 v2 X1 X5 n,
      ∀ x : p.1.shape.Idx, p.2 x = rows arg1 arg5 v2 X1 X5 (p.1.emb x)
  | 0, _, p, hp, _ => (List.not_mem_nil (show p ∈ ([] : List (View.Piece (Elt F) S8x512 .f32)) from hp)).elim
  | n + 1, hn, p, hp, x => by
    have hk : n < k0_t1_loop.trips := hn
    have hs := pb_k0_t1_succ (F := F) 𝒱 c bd i arg1 harg1 arg2 harg2 arg3 harg3 arg4 harg4 arg5 harg5 arg6 harg6 v2 X1 X5 ⟨n, hk⟩
    rw [tripL_eq] at hs
    have hp' : p ∈ (⟨Rect.unit (s := S8x512) (k0_off2 ⟨n, hk⟩) S1x512.size (k0_off2_inb ⟨n, hk⟩), tripRow arg1 arg5 v2 X1 X5 ⟨n, hk⟩⟩
        : View.Piece (Elt F) S8x512 .f32) :: pb_k0_t1 (F := F) 𝒱 c bd i arg1 harg1 arg2 harg2 arg3 harg3 arg4 harg4 arg5 harg5 arg6 harg6 v2 X1 X5 n := by
      have := hs ▸ hp
      exact this
    rcases List.mem_cons.mp hp' with rfl | hrest
    · obtain ⟨h20, h21, -, -, -⟩ := offsets ⟨n, hk⟩
      have hx0 : (x 0).val = 0 := by
        have h : (x 0).val < 1 := (x 0).isLt
        omega
      have e0 : ((Rect.unit (s := S8x512) (k0_off2 ⟨n, hk⟩) S1x512.size (k0_off2_inb ⟨n, hk⟩)).emb x 0).val = n := by
        rw [Rect.emb_apply]
        simp only [Rect.off_unit, Rect.stride_unit]
        rw [h20, hx0]
        show n + 1 * 0 = n
        omega
      have e1 : ((Rect.unit (s := S8x512) (k0_off2 ⟨n, hk⟩) S1x512.size (k0_off2_inb ⟨n, hk⟩)).emb x 1).val = (x 1).val := by
        rw [Rect.emb_apply]
        simp only [Rect.off_unit, Rect.stride_unit]
        rw [h21]; omega
      refine (tripRow_congr arg1 arg5 v2 X1 X5 ⟨n, hk⟩ _ x _ (Fin.ext e0) ?_).symm
      funext a; apply Fin.ext
      match a with
      | ⟨0, _⟩ => exact hx0.symm
      | ⟨1, _⟩ => exact e1
    · exact pb_pieces n (Nat.le_of_lt hk) p hrest x

/-- Every position whose row is below n lies in a piece stored by the first n trips. -/
theorem pb_cover : ∀ n, n ≤ k0_t1_loop.trips → ∀ y : S8x512.Idx, (y 0).val < n →
    ∃ p ∈ pb_k0_t1 (F := F) 𝒱 c bd i arg1 harg1 arg2 harg2 arg3 harg3 arg4 harg4 arg5 harg5 arg6 harg6 v2 X1 X5 n, y ∈ p.1.set
  | 0, _, y, h => absurd h (Nat.not_lt_zero _)
  | n + 1, hn, y, h => by
    have hk : n < k0_t1_loop.trips := hn
    have hs := pb_k0_t1_succ (F := F) 𝒱 c bd i arg1 harg1 arg2 harg2 arg3 harg3 arg4 harg4 arg5 harg5 arg6 harg6 v2 X1 X5 ⟨n, hk⟩
    rw [tripL_eq] at hs
    by_cases hy : (y 0).val = n
    · refine ⟨⟨Rect.unit (s := S8x512) (k0_off2 ⟨n, hk⟩) S1x512.size (k0_off2_inb ⟨n, hk⟩), tripRow arg1 arg5 v2 X1 X5 ⟨n, hk⟩⟩, ?_, ?_⟩
      · have : (⟨Rect.unit (s := S8x512) (k0_off2 ⟨n, hk⟩) S1x512.size (k0_off2_inb ⟨n, hk⟩), tripRow arg1 arg5 v2 X1 X5 ⟨n, hk⟩⟩
            : View.Piece (Elt F) S8x512 .f32) ∈ _ :: pb_k0_t1 (F := F) 𝒱 c bd i arg1 harg1 arg2 harg2 arg3 harg3 arg4 harg4 arg5 harg5 arg6 harg6 v2 X1 X5 n := List.mem_cons_self
        exact hs ▸ this
      · obtain ⟨h20, h21, -, -, -⟩ := offsets ⟨n, hk⟩
        have h512 : (y 1).val < 512 := (y 1).isLt
        rw [Rect.mem_set_unit]
        intro a
        match a with
        | ⟨0, _⟩ =>
          show k0_off2 ⟨n, hk⟩ 0 ≤ (y 0).val ∧ (y 0).val < k0_off2 ⟨n, hk⟩ 0 + 1
          rw [h20]; show n ≤ (y 0).val ∧ (y 0).val < n + 1; omega
        | ⟨1, _⟩ =>
          show k0_off2 ⟨n, hk⟩ 1 ≤ (y 1).val ∧ (y 1).val < k0_off2 ⟨n, hk⟩ 1 + 512
          rw [h21]; omega
    · obtain ⟨p, hp, hm⟩ := pb_cover n (Nat.le_of_lt hk) y (by omega)
      refine ⟨p, ?_, hm⟩
      have : p ∈ (⟨Rect.unit (s := S8x512) (k0_off2 ⟨n, hk⟩) S1x512.size (k0_off2_inb ⟨n, hk⟩), tripRow arg1 arg5 v2 X1 X5 ⟨n, hk⟩⟩
          : View.Piece (Elt F) S8x512 .f32) :: pb_k0_t1 (F := F) 𝒱 c bd i arg1 harg1 arg2 harg2 arg3 harg3 arg4 harg4 arg5 harg5 arg6 harg6 v2 X1 X5 n := List.mem_cons_of_mem _ hp
      exact hs ▸ this

/-- THE SCRATCH AFTER THE LOOP: a load of the whole buffer, over whatever it held before, reads the 8 trips' rows. -/
theorem readAt_rows (fs1 : BufTy.Contents (Elt F) arg6.view.ty) :
    View.readAt (Elt F) arg6.view (Rect.unit (s := S8x512) ![0, 0] S8x512.size inb_S8x512_S8x512_0_0).toLoadRect
      (arg6.view.writes (Elt F) fs1
        (pb_k0_t1 (F := F) 𝒱 c bd i arg1 harg1 arg2 harg2 arg3 harg3 arg4 harg4 arg5 harg5 arg6 harg6 v2 X1 X5 (Scf.trips k0_t1_loop.lb k0_t1_loop.ub k0_t1_loop.st)))
      = rows arg1 arg5 v2 X1 X5 := by
  have hz : (![0, 0] : Fin S8x512.rank → ℕ) = fun _ => 0 := by
    funext a
    match a with
    | ⟨0, _⟩ => rfl
    | ⟨1, _⟩ => rfl
  have hcov : ∀ y : S8x512.Idx, ∃ p ∈ pb_k0_t1 (F := F) 𝒱 c bd i arg1 harg1 arg2 harg2 arg3 harg3 arg4 harg4 arg5 harg5 arg6 harg6 v2 X1 X5 k0_t1_loop.trips, y ∈ p.1.set :=
    fun y => pb_cover 𝒱 c bd i arg1 harg1 arg2 harg2 arg3 harg3 arg4 harg4 arg5 harg5 arg6 harg6 v2 X1 X5 k0_t1_loop.trips (Nat.le_refl _) y (by rw [trips_eq]; exact (y 0).isLt)
  show View.readAt (Elt F) arg6.view (Rect.unit (s := S8x512) ![0, 0] S8x512.size inb_S8x512_S8x512_0_0).toLoadRect
      (arg6.view.writes (Elt F) fs1 (pb_k0_t1 (F := F) 𝒱 c bd i arg1 harg1 arg2 harg2 arg3 harg3 arg4 harg4 arg5 harg5 arg6 harg6 v2 X1 X5 k0_t1_loop.trips)) = _
  rw [View.readAt_eq_ld, View.ld_unit_zero hz, View.read_writes_eq_canon _ _ _ hcov]
  funext y
  exact View.canon_apply_of_pieces (rows arg1 arg5 v2 X1 X5) _
    (pb_pieces 𝒱 c bd i arg1 harg1 arg2 harg2 arg3 harg3 arg4 harg4 arg5 harg5 arg6 harg6 v2 X1 X5 k0_t1_loop.trips (Nat.le_refl _)) y (hcov y)

end

/-! ## The same, at what the body has loaded and stored when the loop starts -/

section
variable (𝒱 : Variants) (c : Dev nD) (bd : Option 𝒱.V) (i : grid0.Coords) (arg1 : Memref sig .tc .vmem S8x512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512x512 .bf16) (harg5 : arg5.IsWhole) (arg6 : Memref sig .tc .vmem S8x512 .f32) (harg6 : arg6.IsWhole)
  (x0 : Vec F S8x512x512 .f32) (x1 x2 : Vec F S512x512 .f32)

/-- The point's 8 output rows as a function of its three input blocks `x0`, `x1`, `x2`, held by whole staging
    buffers: the folded matrix is the whole of `x2`, the slabs are read from `x0`, and the kept value projection is
    what the body's first store left, the projection of `x0` against `x1`. -/
def outRows : S8x512.Idx → Elt F .f32 :=
  rows arg1 arg5
    (View.readAt (Elt F) arg3.view (Rect.unit (s := S512x512) ![0, 0] S512x512.size inb_S512x512_S512x512_0_0).toLoadRect (harg3.unread x2))
    (harg1.unread x0)
    (arg5.view.writes (Elt F) arg5.view.junk
      [⟨Rect.unit (s := S8x512x512) ![0, 0, 0] S8x512x512.size inb_S8x512x512_S8x512x512_0_0_0,
        k0_pay1
          (View.readAt (Elt F) arg2.view (Rect.unit (s := S512x512) ![0, 0] S512x512.size inb_S512x512_S512x512_0_0).toLoadRect (harg2.unread x1))
          (View.readAt (Elt F) arg1.view (Rect.unit (s := S8x512x512) ![0, 0, 0] S8x512x512.size inb_S8x512x512_S8x512x512_0_0_0).toLoadRect (harg1.unread x0))⟩])

/-- The whole scratch buffer after the loop, over whatever it held before, is `outRows`. -/
theorem readAt_outRows (fs1 : BufTy.Contents (Elt F) arg6.view.ty) :
    View.readAt (Elt F) arg6.view (Rect.unit (s := S8x512) ![0, 0] S8x512.size inb_S8x512_S8x512_0_0).toLoadRect
      (arg6.view.writes (Elt F) fs1
        (pb_k0_t1 (F := F) 𝒱 c bd i arg1 harg1 arg2 harg2 arg3 harg3 arg4 harg4 arg5 harg5 arg6 harg6
          (View.readAt (Elt F) arg3.view (Rect.unit (s := S512x512) ![0, 0] S512x512.size inb_S512x512_S512x512_0_0).toLoadRect (harg3.unread x2))
          (harg1.unread x0)
          (arg5.view.writes (Elt F) arg5.view.junk
            [⟨Rect.unit (s := S8x512x512) ![0, 0, 0] S8x512x512.size inb_S8x512x512_S8x512x512_0_0_0,
              k0_pay1
                (View.readAt (Elt F) arg2.view (Rect.unit (s := S512x512) ![0, 0] S512x512.size inb_S512x512_S512x512_0_0).toLoadRect (harg2.unread x1))
                (View.readAt (Elt F) arg1.view (Rect.unit (s := S8x512x512) ![0, 0, 0] S8x512x512.size inb_S8x512x512_S8x512x512_0_0_0).toLoadRect (harg1.unread x0))⟩])
          (Scf.trips k0_t1_loop.lb k0_t1_loop.ub k0_t1_loop.st)))
      = outRows arg1 harg1 arg2 harg2 arg3 harg3 arg5 x0 x1 x2 :=
  readAt_rows 𝒱 c bd i arg1 harg1 arg2 harg2 arg3 harg3 arg4 harg4 arg5 harg5 arg6 harg6 _ _ _ fs1

end

end Cert.Kernel.LoopRows

end
-- ==== Proof.KernelIdealLoopRows.lean ====
/-
  The scratch rows the body's loop leaves, read back as one function.

  The loop runs 8 trips.  Trip k reads slab k of the point's input block and slab k of the kept value projection,
  computes one output row from them, and stores it as row k of a scratch buffer of 8 rows; nothing else writes that
  buffer.  After the 8 trips every row has been written exactly once, so reading the whole buffer gives, at row g and
  column o, the row computed by trip g at column o — whatever the buffer held before the loop.  The statement is about
  the list of stored pieces only, so it holds for every reading of the float operations.
-/
import proofs.«172170_j55370718380196_2_alg».proof.Proof.Gen.KernelIdeal
import proofs.«172170_j55370718380196_2_alg».proof.Proof.Gen.KernelIdeal.Loops
import Idealize.ShloMosaic.Lib.Pipeline.FrameBody
import Idealize.ShloMosaic.Lib.Pipeline.Value
import Idealize.ShloMosaic.Lib.ValueIdx

noncomputable section

namespace Cert.KernelIdeal.LoopRows

open Idealize.ShloMosaic Idealize.ShloMosaic.TcCoe Idealize.ShloMosaic.ValueIdx Idealize.SL.Sem
open Cert.KernelIdeal Cert.KernelIdeal.Gen

variable {F : FTy → Type} [FloatOps F]

/-- The loop makes 8 trips. -/
theorem trips_eq : k0_t1_loop.trips = 8 := by decide +kernel

/-- Trip k addresses slab k of the two 3-axis buffers and row k of the scratch: the offsets in closed form. -/
theorem offsets : ∀ k : Fin k0_t1_loop.trips,
    k0_off2 k 0 = k.val ∧ k0_off2 k 1 = 0 ∧ k0_off1 k 0 = k.val ∧ k0_off1 k 1 = 0 ∧ k0_off1 k 2 = 0 := by decide +kernel

/-- The row and the column of a position of the scratch buffer, as numbers below 8 and below 512. -/
def rowOf (y : S8x512.Idx) : Fin 8 := ⟨(y 0).val, (y 0).isLt⟩
def colOf (y : S8x512.Idx) : Fin 512 := ⟨(y 1).val, (y 1).isLt⟩

section
variable (𝒱 : Variants) (c : Dev nD) (bd : Option 𝒱.V) (i : grid0.Coords) (arg1 : Memref sig .tc .vmem S8x512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512x512 .bf16) (harg5 : arg5.IsWhole) (arg6 : Memref sig .tc .vmem S8x512 .f32) (harg6 : arg6.IsWhole)
  (v2 : Vec F S512x512 .f32) (X1 : BufTy.Contents (Elt F) arg1.view.ty) (X5 : BufTy.Contents (Elt F) arg5.view.ty)

/-- The row trip k stores: the body's row value of the two slabs it loads. -/
def tripRow (k : Fin k0_t1_loop.trips) : FVec F S1x512 .f32 :=
  k0_pay2 v2
    (View.readAt (Elt F) arg1.view (Rect.unit (s := S8x512x512) (k0_off1 k) S1x512x512.size (k0_off1_inb k)).toLoadRect X1)
    (View.readAt (Elt F) arg5.view (Rect.unit (s := S8x512x512) (k0_off1 k) S1x512x512.size (k0_off1_inb k)).toLoadRect X5)

/-- Trip k's stored pieces: one, the row at offset k. -/
theorem tripL_eq (k : Fin k0_t1_loop.trips) :
    tripL_k0_t1 (F := F) 𝒱 c bd i arg1 harg1 arg2 harg2 arg3 harg3 arg4 harg4 arg5 harg5 arg6 harg6 v2 X1 X5 k
      = [⟨Rect.unit (s := S8x512) (k0_off2 k) S1x512.size (k0_off2_inb k), tripRow arg1 arg5 v2 X1 X5 k⟩] := by
  unfold tripL_k0_t1 trip_k0_t1
  rfl

/-- The whole scratch buffer after the loop, as one function of the position. -/
def rows : S8x512.Idx → Elt F .f32 := fun y =>
  tripRow arg1 arg5 v2 X1 X5 ⟨(rowOf y).val, by rw [trips_eq]; exact (rowOf y).isLt⟩ (ix2 (0 : Fin 1) (colOf y))

/-- A row read at a trip and a position that are equal to given ones. -/
theorem tripRow_congr (k k' : Fin k0_t1_loop.trips) (x x' : S1x512.Idx) (hk : k' = k) (hx : x' = x) :
    tripRow arg1 arg5 v2 X1 X5 k' x' = tripRow arg1 arg5 v2 X1 X5 k x := by subst hk; subst hx; rfl

/-- Every piece stored by the first n trips is a restriction of that one function. -/
theorem pb_pieces : ∀ n, n ≤ k0_t1_loop.trips →
    ∀ p ∈ pb_k0_t1 (F := F) 𝒱 c bd i arg1 harg1 arg2 harg2 arg3 harg3 arg4 harg4 arg5 harg5 arg6 harg6 v2 X1 X5 n,
      ∀ x : p.1.shape.Idx, p.2 x = rows arg1 arg5 v2 X1 X5 (p.1.emb x)
  | 0, _, p, hp, _ => (List.not_mem_nil (show p ∈ ([] : List (View.Piece (Elt F) S8x512 .f32)) from hp)).elim
  | n + 1, hn, p, hp, x => by
    have hk : n < k0_t1_loop.trips := hn
    have hs := pb_k0_t1_succ (F := F) 𝒱 c bd i arg1 harg1 arg2 harg2 arg3 harg3 arg4 harg4 arg5 harg5 arg6 harg6 v2 X1 X5 ⟨n, hk⟩
    rw [tripL_eq] at hs
    have hp' : p ∈ (⟨Rect.unit (s := S8x512) (k0_off2 ⟨n, hk⟩) S1x512.size (k0_off2_inb ⟨n, hk⟩), tripRow arg1 arg5 v2 X1 X5 ⟨n, hk⟩⟩
        : View.Piece (Elt F) S8x512 .f32) :: pb_k0_t1 (F := F) 𝒱 c bd i arg1 harg1 arg2 harg2 arg3 harg3 arg4 harg4 arg5 harg5 arg6 harg6 v2 X1 X5 n := by
      have := hs ▸ hp
      exact this
    rcases List.mem_cons.mp hp' with rfl | hrest
    · obtain ⟨h20, h21, -, -, -⟩ := offsets ⟨n, hk⟩
      have hx0 : (x 0).val = 0 := by
        have h : (x 0).val < 1 := (x 0).isLt
        omega
      have e0 : ((Rect.unit (s := S8x512) (k0_off2 ⟨n, hk⟩) S1x512.size (k0_off2_inb ⟨n, hk⟩)).emb x 0).val = n := by
        rw [Rect.emb_apply]
        simp only [Rect.off_unit, Rect.stride_unit]
        rw [h20, hx0]
        show n + 1 * 0 = n
        omega
      have e1 : ((Rect.unit (s := S8x512) (k0_off2 ⟨n, hk⟩) S1x512.size (k0_off2_inb ⟨n, hk⟩)).emb x 1).val = (x 1).val := by
        rw [Rect.emb_apply]
        simp only [Rect.off_unit, Rect.stride_unit]
        rw [h21]; omega
      refine (tripRow_congr arg1 arg5 v2 X1 X5 ⟨n, hk⟩ _ x _ (Fin.ext e0) ?_).symm
      funext a; apply Fin.ext
      match a with
      | ⟨0, _⟩ => exact hx0.symm
      | ⟨1, _⟩ => exact e1
    · exact pb_pieces n (Nat.le_of_lt hk) p hrest x

/-- Every position whose row is below n lies in a piece stored by the first n trips. -/
theorem pb_cover : ∀ n, n ≤ k0_t1_loop.trips → ∀ y : S8x512.Idx, (y 0).val < n →
    ∃ p ∈ pb_k0_t1 (F := F) 𝒱 c bd i arg1 harg1 arg2 harg2 arg3 harg3 arg4 harg4 arg5 harg5 arg6 harg6 v2 X1 X5 n, y ∈ p.1.set
  | 0, _, y, h => absurd h (Nat.not_lt_zero _)
  | n + 1, hn, y, h => by
    have hk : n < k0_t1_loop.trips := hn
    have hs := pb_k0_t1_succ (F := F) 𝒱 c bd i arg1 harg1 arg2 harg2 arg3 harg3 arg4 harg4 arg5 harg5 arg6 harg6 v2 X1 X5 ⟨n, hk⟩
    rw [tripL_eq] at hs
    by_cases hy : (y 0).val = n
    · refine ⟨⟨Rect.unit (s := S8x512) (k0_off2 ⟨n, hk⟩) S1x512.size (k0_off2_inb ⟨n, hk⟩), tripRow arg1 arg5 v2 X1 X5 ⟨n, hk⟩⟩, ?_, ?_⟩
      · have : (⟨Rect.unit (s := S8x512) (k0_off2 ⟨n, hk⟩) S1x512.size (k0_off2_inb ⟨n, hk⟩), tripRow arg1 arg5 v2 X1 X5 ⟨n, hk⟩⟩
            : View.Piece (Elt F) S8x512 .f32) ∈ _ :: pb_k0_t1 (F := F) 𝒱 c bd i arg1 harg1 arg2 harg2 arg3 harg3 arg4 harg4 arg5 harg5 arg6 harg6 v2 X1 X5 n := List.mem_cons_self
        exact hs ▸ this
      · obtain ⟨h20, h21, -, -, -⟩ := offsets ⟨n, hk⟩
        have h512 : (y 1).val < 512 := (y 1).isLt
        rw [Rect.mem_set_unit]
        intro a
        match a with
        | ⟨0, _⟩ =>
          show k0_off2 ⟨n, hk⟩ 0 ≤ (y 0).val ∧ (y 0).val < k0_off2 ⟨n, hk⟩ 0 + 1
          rw [h20]; show n ≤ (y 0).val ∧ (y 0).val < n + 1; omega
        | ⟨1, _⟩ =>
          show k0_off2 ⟨n, hk⟩ 1 ≤ (y 1).val ∧ (y 1).val < k0_off2 ⟨n, hk⟩ 1 + 512
          rw [h21]; omega
    · obtain ⟨p, hp, hm⟩ := pb_cover n (Nat.le_of_lt hk) y (by omega)
      refine ⟨p, ?_, hm⟩
      have : p ∈ (⟨Rect.unit (s := S8x512) (k0_off2 ⟨n, hk⟩) S1x512.size (k0_off2_inb ⟨n, hk⟩), tripRow arg1 arg5 v2 X1 X5 ⟨n, hk⟩⟩
          : View.Piece (Elt F) S8x512 .f32) :: pb_k0_t1 (F := F) 𝒱 c bd i arg1 harg1 arg2 harg2 arg3 harg3 arg4 harg4 arg5 harg5 arg6 harg6 v2 X1 X5 n := List.mem_cons_of_mem _ hp
      exact hs ▸ this

/-- THE SCRATCH AFTER THE LOOP: a load of the whole buffer, over whatever it held before, reads the 8 trips' rows. -/
theorem readAt_rows (fs1 : BufTy.Contents (Elt F) arg6.view.ty) :
    View.readAt (Elt F) arg6.view (Rect.unit (s := S8x512) ![0, 0] S8x512.size inb_S8x512_S8x512_0_0).toLoadRect
      (arg6.view.writes (Elt F) fs1
        (pb_k0_t1 (F := F) 𝒱 c bd i arg1 harg1 arg2 harg2 arg3 harg3 arg4 harg4 arg5 harg5 arg6 harg6 v2 X1 X5 (Scf.trips k0_t1_loop.lb k0_t1_loop.ub k0_t1_loop.st)))
      = rows arg1 arg5 v2 X1 X5 := by
  have hz : (![0, 0] : Fin S8x512.rank → ℕ) = fun _ => 0 := by
    funext a
    match a with
    | ⟨0, _⟩ => rfl
    | ⟨1, _⟩ => rfl
  have hcov : ∀ y : S8x512.Idx, ∃ p ∈ pb_k0_t1 (F := F) 𝒱 c bd i arg1 harg1 arg2 harg2 arg3 harg3 arg4 harg4 arg5 harg5 arg6 harg6 v2 X1 X5 k0_t1_loop.trips, y ∈ p.1.set :=
    fun y => pb_cover 𝒱 c bd i arg1 harg1 arg2 harg2 arg3 harg3 arg4 harg4 arg5 harg5 arg6 harg6 v2 X1 X5 k0_t1_loop.trips (Nat.le_refl _) y (by rw [trips_eq]; exact (y 0).isLt)
  show View.readAt (Elt F) arg6.view (Rect.unit (s := S8x512) ![0, 0] S8x512.size inb_S8x512_S8x512_0_0).toLoadRect
      (arg6.view.writes (Elt F) fs1 (pb_k0_t1 (F := F) 𝒱 c bd i arg1 harg1 arg2 harg2 arg3 harg3 arg4 harg4 arg5 harg5 arg6 harg6 v2 X1 X5 k0_t1_loop.trips)) = _
  rw [View.readAt_eq_ld, View.ld_unit_zero hz, View.read_writes_eq_canon _ _ _ hcov]
  funext y
  exact View.canon_apply_of_pieces (rows arg1 arg5 v2 X1 X5) _
    (pb_pieces 𝒱 c bd i arg1 harg1 arg2 harg2 arg3 harg3 arg4 harg4 arg5 harg5 arg6 harg6 v2 X1 X5 k0_t1_loop.trips (Nat.le_refl _)) y (hcov y)

end

/-! ## The same, at what the body has loaded and stored when the loop starts -/

section
variable (𝒱 : Variants) (c : Dev nD) (bd : Option 𝒱.V) (i : grid0.Coords) (arg1 : Memref sig .tc .vmem S8x512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512x512 .bf16) (harg5 : arg5.IsWhole) (arg6 : Memref sig .tc .vmem S8x512 .f32) (harg6 : arg6.IsWhole)
  (x0 : Vec F S8x512x512 .f32) (x1 x2 : Vec F S512x512 .f32)

/-- The point's 8 output rows as a function of its three input blocks `x0`, `x1`, `x2`, held by whole staging
    buffers: the folded matrix is the whole of `x2`, the slabs are read from `x0`, and the kept value projection is
    what the body's first store left, the projection of `x0` against `x1`. -/
def outRows : S8x512.Idx → Elt F .f32 :=
  rows arg1 arg5
    (View.readAt (Elt F) arg3.view (Rect.unit (s := S512x512) ![0, 0] S512x512.size inb_S512x512_S512x512_0_0).toLoadRect (harg3.unread x2))
    (harg1.unread x0)
    (arg5.view.writes (Elt F) arg5.view.junk
      [⟨Rect.unit (s := S8x512x512) ![0, 0, 0] S8x512x512.size inb_S8x512x512_S8x512x512_0_0_0,
        k0_pay1
          (View.readAt (Elt F) arg2.view (Rect.unit (s := S512x512) ![0, 0] S512x512.size inb_S512x512_S512x512_0_0).toLoadRect (harg2.unread x1))
          (View.readAt (Elt F) arg1.view (Rect.unit (s := S8x512x512) ![0, 0, 0] S8x512x512.size inb_S8x512x512_S8x512x512_0_0_0).toLoadRect (harg1.unread x0))⟩])

/-- The whole scratch buffer after the loop, over whatever it held before, is `outRows`. -/
theorem readAt_outRows (fs1 : BufTy.Contents (Elt F) arg6.view.ty) :
    View.readAt (Elt F) arg6.view (Rect.unit (s := S8x512) ![0, 0] S8x512.size inb_S8x512_S8x512_0_0).toLoadRect
      (arg6.view.writes (Elt F) fs1
        (pb_k0_t1 (F := F) 𝒱 c bd i arg1 harg1 arg2 harg2 arg3 harg3 arg4 harg4 arg5 harg5 arg6 harg6
          (View.readAt (Elt F) arg3.view (Rect.unit (s := S512x512) ![0, 0] S512x512.size inb_S512x512_S512x512_0_0).toLoadRect (harg3.unread x2))
          (harg1.unread x0)
          (arg5.view.writes (Elt F) arg5.view.junk
            [⟨Rect.unit (s := S8x512x512) ![0, 0, 0] S8x512x512.size inb_S8x512x512_S8x512x512_0_0_0,
              k0_pay1
                (View.readAt (Elt F) arg2.view (Rect.unit (s := S512x512) ![0, 0] S512x512.size inb_S512x512_S512x512_0_0).toLoadRect (harg2.unread x1))
                (View.readAt (Elt F) arg1.view (Rect.unit (s := S8x512x512) ![0, 0, 0] S8x512x512.size inb_S8x512x512_S8x512x512_0_0_0).toLoadRect (harg1.unread x0))⟩])
          (Scf.trips k0_t1_loop.lb k0_t1_loop.ub k0_t1_loop.st)))
      = outRows arg1 harg1 arg2 harg2 arg3 harg3 arg5 x0 x1 x2 :=
  readAt_rows 𝒱 c bd i arg1 harg1 arg2 harg2 arg3 harg3 arg4 harg4 arg5 harg5 arg6 harg6 _ _ _ fs1

end

end Cert.KernelIdeal.LoopRows

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.LibSoftmaxRow.lean ====
/-
  One row of a softmax on the extended reals.

  A softmax along a row is computed in three passes: the greatest entry of the row, the exponentials of the
  entries after that greatest entry is subtracted, and the quotient of each exponential by their sum.  The greatest
  entry is taken as a running maximum that starts from −∞, so it is written here as the fold of `max` from the f32
  word of −∞ over the row's positions.  Nothing below assumes the entries are finite: the statements are identities
  between the same operations of the extended reals, whatever values they take.

  An array program sometimes guards the greatest entry once more against −∞ and starts the sum from the word of
  zero; both are the identity on the extended reals, which `softmaxRow_guarded` records.
-/
import Idealize.ShloMosaic.PureOps.Ideal
import Idealize.ShloMosaic.PureOps.Ideal.Laws

noncomputable section

open scoped BigOperators

namespace Cert.Lib.SoftmaxRow

open Idealize.ShloMosaic

/-- The f32 word of −∞ is the least extended real, so the greater of it and `x` is `x`. -/
theorem max_negInf_left (x : EReal) : max (Ideal.ofBits .f32 0xFF800000#32) x = x := by
  have h : Ideal.ofBits .f32 0xFF800000#32 = (⊥ : EReal) := by simp [Ideal.ofBits, Ideal.ieee]
  rw [h]
  exact max_eq_right bot_le

/-- The greatest entry of a finite row, as a running maximum from −∞. -/
def rowMax {C : ℕ} (f : Fin C → EReal) : EReal :=
  (Finset.univ : Finset (Fin C)).fold max (Ideal.ofBits .f32 0xFF800000#32) f

/-- Entry `p` of the softmax of the row `f`: the exponential of `f p` less the row's greatest entry, over the sum
    of those exponentials along the row. -/
def softmaxRow {C : ℕ} (f : Fin C → EReal) (p : Fin C) : EReal :=
  Ideal.div (Ideal.exp (f p - rowMax f)) (∑ q : Fin C, Ideal.exp (f q - rowMax f))

/-- Guarding the greatest entry against −∞ once more, and starting the sum from zero, changes nothing. -/
theorem softmaxRow_guarded {C : ℕ} (f : Fin C → EReal) (p : Fin C) :
    Ideal.div (Ideal.exp (f p - max (Ideal.ofBits .f32 0xFF800000#32) (rowMax f)))
        (Ideal.ofBits .f32 0x00000000#32 + ∑ q : Fin C, Ideal.exp (f q - max (Ideal.ofBits .f32 0xFF800000#32) (rowMax f)))
      = softmaxRow f p := by
  rw [max_negInf_left, Ideal.ofBits_zero_f32, zero_add]
  rfl

end Cert.Lib.SoftmaxRow

end
-- ==== Proof.LibSoftmaxLanes.lean ====
/-
  A softmax along the lanes (the last axis) of a matrix, in the operations a kernel body and an array program use,
  read at an index on the extended reals.  Over any extents.

  A kernel body takes the row's greatest entry by a reduction along the lanes from −∞, views the vector of those
  as a column, repeats the column along the lanes, subtracts, exponentiates, sums along the lanes from zero, views and
  repeats that column too, and divides.  Read at (r, p) this is entry p of the softmax of row r (`softmaxRow`).
  An array program takes the greatest entry by a fold over the last axis of a rank-3 array from −∞; read at (n, r)
  that is the same running maximum of row (n, r).
-/
import Idealize.ShloMosaic.PureOps.Ideal.Laws
import Idealize.ShloMosaic.Lib.ValueIdx
import proofs.«172170_j55370718380196_2_alg».proof.Proof.LibColumnLayout
import proofs.«172170_j55370718380196_2_alg».proof.Proof.LibSoftmaxRow

noncomputable section

open scoped BigOperators

namespace Cert.Lib.SoftmaxLanes

open Idealize.ShloMosaic Idealize.ShloMosaic.ValueIdx Cert.Lib.SoftmaxRow Cert.Lib.ColumnLayout

variable {N R C : ℕ}

/-- The reduced index `r` of a matrix with lane `q` put back is `(r, q)`. -/
theorem lift_lane (h : (⟨2, ![R, C]⟩ : Shape).Reduces [1] ⟨1, ![R]⟩) (r : Fin R) (q : Fin C) :
    h.lift (ix1 r) q = ix2 r q := by
  funext c; apply Fin.ext
  match c with
  | ⟨0, _⟩ => rfl
  | ⟨1, _⟩ => rfl

/-- The reduced index `(n, r)` of a rank-3 array with the last coordinate `q` put back is `(n, r, q)`. -/
theorem lift_last (h : (⟨3, ![N, R, C]⟩ : Shape).Reduces [2] ⟨2, ![N, R]⟩) (n : Fin N) (r : Fin R) (q : Fin C) :
    h.lift (ix2 n r) q = ix3 n r q := by
  funext c; apply Fin.ext
  match c with
  | ⟨0, _⟩ => rfl
  | ⟨1, _⟩ => rfl
  | ⟨2, _⟩ => rfl

/-- A kernel's reduction by maximum along the lanes from −∞, at row `r`: the running maximum of that row. -/
theorem lanes_max_apply (A : FVec Ideal ⟨2, ![R, C]⟩ .f32) (h : (⟨2, ![R, C]⟩ : Shape).Reduces [1] ⟨1, ![R]⟩)
    (hφ : FKind.Formats .f32) (hacc : (0xFF800000#32 : BitVec 32) = FKind.maximumf.neutral .f32 hφ) (r : Fin R) :
    multiReduction .maximumf [1] ⟨1, ![R]⟩ A 0xFF800000#32 h hφ hacc (ix1 r) = rowMax (fun q => A (ix2 r q)) := by
  refine (Ideal.multiReduction_maximumf_single A 0xFF800000#32 h hφ hacc (ix1 r)).trans ?_
  have hf : (A ∘ h.lift (ix1 r)) = fun q : Fin C => A (ix2 r q) := funext fun q => congrArg A (lift_lane h r q)
  exact congrArg (fun f => Finset.fold max (Ideal.ofBits .f32 0xFF800000#32) f (Finset.univ : Finset (Fin C))) hf

/-- A kernel's reduction by sum along the lanes from zero, at row `r`: the sum of that row. -/
theorem lanes_sum_apply (A : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (r : Fin R) :
    multiReduction .add [1] ⟨1, ![R]⟩ A 0x00000000#32 h hφ hacc (ix1 r) = ∑ q : Fin C, A (ix2 r q) := by
  refine (Ideal.multiReduction_add_single A 0x00000000#32 h hφ hacc (ix1 r)).trans ?_
  exact Finset.sum_congr rfl fun q _ => congrArg A (lift_lane h r q)

/-- A vector of one number per row, viewed as a column and repeated along the lanes, reads at `(r, p)` the number
    of row `r`. -/
theorem column_repeat_apply {α : Type} (v : (⟨1, ![R]⟩ : Shape).Idx → α) (hc : (⟨1, ![R]⟩ : Shape).ShapeCasts ⟨2, ![R, 1]⟩)
    (hb : (⟨2, ![R, 1]⟩ : Shape).Broadcasts ⟨2, ![R, C]⟩) (r : Fin R) (p : Fin C) :
    broadcastTo ⟨2, ![R, C]⟩ (shapeCast ⟨2, ![R, 1]⟩ v hc) hb (ix2 r p) = v (ix1 r) :=
  (broadcastTo_a1_ab_apply _ hb r p (0 : Fin 1)).trans (shapeCast_a_a1_apply v hc r (0 : Fin 1))

/-- THE LANE SOFTMAX of a kernel body, read at `(r, p)`: entry `p` of the softmax of row `r`. -/
theorem lanes_softmax_apply (A : FVec Ideal ⟨2, ![R, C]⟩ .f32) (h : (⟨2, ![R, C]⟩ : Shape).Reduces [1] ⟨1, ![R]⟩)
    (hφ : FKind.Formats .f32) (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, C]⟩)
    (r : Fin R) (p : Fin C) :
    divf (exp (subf A (broadcastTo ⟨2, ![R, C]⟩ (shapeCast ⟨2, ![R, 1]⟩
        (multiReduction .maximumf [1] ⟨1, ![R]⟩ A 0xFF800000#32 h hφ hmax) hc) hb)))
      (broadcastTo ⟨2, ![R, C]⟩ (shapeCast ⟨2, ![R, 1]⟩
        (multiReduction .add [1] ⟨1, ![R]⟩ (exp (subf A (broadcastTo ⟨2, ![R, C]⟩ (shapeCast ⟨2, ![R, 1]⟩
          (multiReduction .maximumf [1] ⟨1, ![R]⟩ A 0xFF800000#32 h hφ hmax) hc) hb))) 0x00000000#32 h hφ hadd) hc) hb)
      (ix2 r p)
    = softmaxRow (fun q => A (ix2 r q)) p := by
  have hM : ∀ q : Fin C, (broadcastTo ⟨2, ![R, C]⟩ (shapeCast ⟨2, ![R, 1]⟩
      (multiReduction .maximumf [1] ⟨1, ![R]⟩ A 0xFF800000#32 h hφ hmax) hc) hb) (ix2 r q) = rowMax (fun q' => A (ix2 r q')) :=
    fun q => (column_repeat_apply _ hc hb r q).trans (lanes_max_apply A h hφ hmax r)
  have hE : ∀ q : Fin C, (exp (subf A (broadcastTo ⟨2, ![R, C]⟩ (shapeCast ⟨2, ![R, 1]⟩
      (multiReduction .maximumf [1] ⟨1, ![R]⟩ A 0xFF800000#32 h hφ hmax) hc) hb))) (ix2 r q)
        = Ideal.exp (A (ix2 r q) - rowMax (fun q' => A (ix2 r q'))) := fun q =>
    congrArg (fun m => Ideal.exp (A (ix2 r q) - m)) (hM q)
  have hS := (column_repeat_apply (multiReduction .add [1] ⟨1, ![R]⟩ (exp (subf A (broadcastTo ⟨2, ![R, C]⟩ (shapeCast ⟨2, ![R, 1]⟩
      (multiReduction .maximumf [1] ⟨1, ![R]⟩ A 0xFF800000#32 h hφ hmax) hc) hb))) 0x00000000#32 h hφ hadd) hc hb r p).trans
    ((lanes_sum_apply _ h hφ hadd r).trans (Finset.sum_congr rfl fun q _ => hE q))
  show Ideal.div _ _ = _
  rw [hS]
  exact congrArg (fun e => Ideal.div e _) (hE p)

/-- An array program's fold by maximum over the last axis from −∞, at `(n, r)`: the running maximum of that row. -/
theorem host_last_max_apply (B : FVec Ideal ⟨3, ![N, R, C]⟩ .f32) (h' : (⟨3, ![N, R, C]⟩ : Shape).ReducesTo [2] ⟨2, ![N, R]⟩)
    (h : (⟨3, ![N, R, C]⟩ : Shape).Reduces [2] ⟨2, ![N, R]⟩) (hu : 0 < (⟨0, ![]⟩ : Shape).numel) (n : Fin N) (r : Fin R) :
    Host.reduce FloatOps.maximumf B (constant (F := Ideal) (⟨0, ![]⟩ : Shape) .f32 0xFF800000#32) h' hu (ix2 n r)
      = rowMax (fun q => B (ix3 n r q)) := by
  rw [Host.reduce_eq_fold_single FloatOps.maximumf B _ h' h hu]
  have hf : (B ∘ h.lift (ix2 n r)) = fun q : Fin C => B (ix3 n r q) := funext fun q => congrArg B (lift_last h n r q)
  exact congrArg (fun f => Finset.fold max (Ideal.ofBits .f32 0xFF800000#32) f (Finset.univ : Finset (Fin C))) hf

end Cert.Lib.SoftmaxLanes

end
-- ==== Proof.KernelPayloads.lean ====
/-
  The two stored values of the kernel body, read at an index on the extended reals.

  The body first projects the whole group: the 8 x 512 rows of the group, flattened to 4096 rows, against the value
  weights, contracted over the 512 features — entry (g, m, o) is the sum over d of x[g, m, d] * Wv[o, d] — and keeps it.
  Then, for each of the 8 instances, it takes the instance's matrix X (512 x 512), sends row 0 through the folded
  matrix W (t[e] = sum over d of X[0, d] * W[d, e]), scores every row against it (s[m] = sum over e of t[e] * X[m, e]),
  takes the softmax of the 512 scores, and combines the kept value rows with those weights:
  out[o] = sum over m of softmax(s)[m] * V[m, o].  Changes of float format are the identity on the extended reals and
  the reshapes only rename positions, so these formulas are what the stored vectors hold, entry by entry.
-/
import proofs.«172170_j55370718380196_2_alg».proof.Proof.Gen.KernelIdeal
import proofs.«172170_j55370718380196_2_alg».proof.Proof.Gen.KernelIdeal.Skeleton
import proofs.«172170_j55370718380196_2_alg».proof.Proof.LibContractSum
import proofs.«172170_j55370718380196_2_alg».proof.Proof.LibSoftmaxLanes
import Idealize.ShloMosaic.Lib.Pipeline.Value
import Idealize.ShloMosaic.Lib.ValueIdx
import Idealize.ShloMosaic.PureOps.Ideal.Laws

noncomputable section

open scoped BigOperators

namespace Cert.KernelPayloads

open Idealize.ShloMosaic Idealize.ShloMosaic.ValueIdx Cert.KernelIdeal Cert.KernelIdeal.Gen Cert.Lib.SoftmaxRow

/-! ## The three matrix products, each as a sum over the contracted feature

For each product's dimension record, which coordinate of each operand is read from the output index and which from
the contraction index. -/

theorem rowsByRows_lhs_kept (i : S4096x512.Idx) (q : dot_S4096x512_S512x512_S4096x512_1_1_0_0_n_n.contr.Idx) :
    (dot_S4096x512_S512x512_S4096x512_1_1_0_0_n_n.lhsIdx i q 0).val = (i 0).val := by
  unfold DotDims.lhsIdx
  rw [dif_neg (show ¬(0 : Fin S4096x512.rank) ∈ dot_S4096x512_S512x512_S4096x512_1_1_0_0_n_n.lhsBatch by decide),
    dif_pos (show (0 : Fin S4096x512.rank) ∈ dot_S4096x512_S512x512_S4096x512_1_1_0_0_n_n.lhsNonContracting by decide)]
  rfl
theorem rowsByRows_lhs_contracted (i : S4096x512.Idx) (q : dot_S4096x512_S512x512_S4096x512_1_1_0_0_n_n.contr.Idx) :
    (dot_S4096x512_S512x512_S4096x512_1_1_0_0_n_n.lhsIdx i q 1).val = (q ⟨0, by decide⟩).val :=
  dot_S4096x512_S512x512_S4096x512_1_1_0_0_n_n.lhsIdx_val_of_single rfl i q
theorem rowsByRows_rhs_kept (i : S4096x512.Idx) (q : dot_S4096x512_S512x512_S4096x512_1_1_0_0_n_n.contr.Idx) :
    (dot_S4096x512_S512x512_S4096x512_1_1_0_0_n_n.rhsIdx i q 0).val = (i 1).val := by
  unfold DotDims.rhsIdx
  rw [dif_neg (show ¬(0 : Fin S512x512.rank) ∈ dot_S4096x512_S512x512_S4096x512_1_1_0_0_n_n.rhsBatch by decide),
    dif_pos (show (0 : Fin S512x512.rank) ∈ dot_S4096x512_S512x512_S4096x512_1_1_0_0_n_n.rhsNonContracting by decide)]
  rfl
theorem rowsByRows_rhs_contracted (i : S4096x512.Idx) (q : dot_S4096x512_S512x512_S4096x512_1_1_0_0_n_n.contr.Idx) :
    (dot_S4096x512_S512x512_S4096x512_1_1_0_0_n_n.rhsIdx i q 1).val = (q ⟨0, by decide⟩).val :=
  dot_S4096x512_S512x512_S4096x512_1_1_0_0_n_n.rhsIdx_val_of_single rfl i q

theorem rowByColumns_lhs_kept (i : S1x512.Idx) (q : dot_S1x512_S512x512_S1x512_1_0_0_1_n_n.contr.Idx) :
    (dot_S1x512_S512x512_S1x512_1_0_0_1_n_n.lhsIdx i q 0).val = (i 0).val := by
  unfold DotDims.lhsIdx
  rw [dif_neg (show ¬(0 : Fin S1x512.rank) ∈ dot_S1x512_S512x512_S1x512_1_0_0_1_n_n.lhsBatch by decide),
    dif_pos (show (0 : Fin S1x512.rank) ∈ dot_S1x512_S512x512_S1x512_1_0_0_1_n_n.lhsNonContracting by decide)]
  rfl
theorem rowByColumns_lhs_contracted (i : S1x512.Idx) (q : dot_S1x512_S512x512_S1x512_1_0_0_1_n_n.contr.Idx) :
    (dot_S1x512_S512x512_S1x512_1_0_0_1_n_n.lhsIdx i q 1).val = (q ⟨0, by decide⟩).val :=
  dot_S1x512_S512x512_S1x512_1_0_0_1_n_n.lhsIdx_val_of_single rfl i q
theorem rowByColumns_rhs_kept (i : S1x512.Idx) (q : dot_S1x512_S512x512_S1x512_1_0_0_1_n_n.contr.Idx) :
    (dot_S1x512_S512x512_S1x512_1_0_0_1_n_n.rhsIdx i q 1).val = (i 1).val := by
  unfold DotDims.rhsIdx
  rw [dif_neg (show ¬(1 : Fin S512x512.rank) ∈ dot_S1x512_S512x512_S1x512_1_0_0_1_n_n.rhsBatch by decide),
    dif_pos (show (1 : Fin S512x512.rank) ∈ dot_S1x512_S512x512_S1x512_1_0_0_1_n_n.rhsNonContracting by decide)]
  rfl
theorem rowByColumns_rhs_contracted (i : S1x512.Idx) (q : dot_S1x512_S512x512_S1x512_1_0_0_1_n_n.contr.Idx) :
    (dot_S1x512_S512x512_S1x512_1_0_0_1_n_n.rhsIdx i q 0).val = (q ⟨0, by decide⟩).val :=
  dot_S1x512_S512x512_S1x512_1_0_0_1_n_n.rhsIdx_val_of_single rfl i q

theorem rowByRows_lhs_kept (i : S1x512.Idx) (q : dot_S1x512_S512x512_S1x512_1_1_0_0_n_n.contr.Idx) :
    (dot_S1x512_S512x512_S1x512_1_1_0_0_n_n.lhsIdx i q 0).val = (i 0).val := by
  unfold DotDims.lhsIdx
  rw [dif_neg (show ¬(0 : Fin S1x512.rank) ∈ dot_S1x512_S512x512_S1x512_1_1_0_0_n_n.lhsBatch by decide),
    dif_pos (show (0 : Fin S1x512.rank) ∈ dot_S1x512_S512x512_S1x512_1_1_0_0_n_n.lhsNonContracting by decide)]
  rfl
theorem rowByRows_lhs_contracted (i : S1x512.Idx) (q : dot_S1x512_S512x512_S1x512_1_1_0_0_n_n.contr.Idx) :
    (dot_S1x512_S512x512_S1x512_1_1_0_0_n_n.lhsIdx i q 1).val = (q ⟨0, by decide⟩).val :=
  dot_S1x512_S512x512_S1x512_1_1_0_0_n_n.lhsIdx_val_of_single rfl i q
theorem rowByRows_rhs_kept (i : S1x512.Idx) (q : dot_S1x512_S512x512_S1x512_1_1_0_0_n_n.contr.Idx) :
    (dot_S1x512_S512x512_S1x512_1_1_0_0_n_n.rhsIdx i q 0).val = (i 1).val := by
  unfold DotDims.rhsIdx
  rw [dif_neg (show ¬(0 : Fin S512x512.rank) ∈ dot_S1x512_S512x512_S1x512_1_1_0_0_n_n.rhsBatch by decide),
    dif_pos (show (0 : Fin S512x512.rank) ∈ dot_S1x512_S512x512_S1x512_1_1_0_0_n_n.rhsNonContracting by decide)]
  rfl
theorem rowByRows_rhs_contracted (i : S1x512.Idx) (q : dot_S1x512_S512x512_S1x512_1_1_0_0_n_n.contr.Idx) :
    (dot_S1x512_S512x512_S1x512_1_1_0_0_n_n.rhsIdx i q 1).val = (q ⟨0, by decide⟩).val :=
  dot_S1x512_S512x512_S1x512_1_1_0_0_n_n.rhsIdx_val_of_single rfl i q

/-- Rows against rows: `[4096, 512] x [512, 512]`, both contracted over their second axis. -/
theorem rowsByRows_apply (prec : Option ContractPrecision) (l : FVec Ideal S4096x512 .bf16) (r : FVec Ideal S512x512 .bf16)
    (p : Fin 4096) (o : Fin 512) :
    matmul dot_S4096x512_S512x512_S4096x512_1_1_0_0_n_n prec l r (constant S4096x512 .f32 0x00000000#32) (ix2 p o)
      = ∑ d : Fin 512, l (ix2 p d) * r (ix2 o d) := by
  refine Cert.LibContractSum.matmul_zero_sum dot_S4096x512_S512x512_S4096x512_1_1_0_0_n_n prec 512 rfl rfl l r (ix2 p o)
    (fun d => ix2 p d) (fun d => ix2 o d) (fun k => ?_) (fun k => ?_)
  · funext a; apply Fin.ext
    match a with
    | ⟨0, _⟩ => exact rowsByRows_lhs_kept _ _
    | ⟨1, _⟩ => exact (rowsByRows_lhs_contracted _ _).trans (contrEquiv1_symm_val dot_S4096x512_S512x512_S4096x512_1_1_0_0_n_n 512 rfl rfl k)
  · funext a; apply Fin.ext
    match a with
    | ⟨0, _⟩ => exact rowsByRows_rhs_kept _ _
    | ⟨1, _⟩ => exact (rowsByRows_rhs_contracted _ _).trans (contrEquiv1_symm_val dot_S4096x512_S512x512_S4096x512_1_1_0_0_n_n 512 rfl rfl k)

/-- A row against columns: `[1, 512] x [512, 512]`, the row's features against the matrix's first axis. -/
theorem rowByColumns_apply {φ₁ φ₂ : FTy} (prec : Option ContractPrecision) (l : FVec Ideal S1x512 φ₁) (r : FVec Ideal S512x512 φ₂)
    (e : Fin 512) :
    matmul dot_S1x512_S512x512_S1x512_1_0_0_1_n_n prec l r (constant S1x512 .f32 0x00000000#32) (ix2 (0 : Fin 1) e)
      = ∑ d : Fin 512, l (ix2 (0 : Fin 1) d) * r (ix2 d e) := by
  refine Cert.LibContractSum.matmul_zero_sum dot_S1x512_S512x512_S1x512_1_0_0_1_n_n prec 512 rfl rfl l r (ix2 (0 : Fin 1) e)
    (fun d => ix2 (0 : Fin 1) d) (fun d => ix2 d e) (fun k => ?_) (fun k => ?_)
  · funext a; apply Fin.ext
    match a with
    | ⟨0, _⟩ => exact rowByColumns_lhs_kept _ _
    | ⟨1, _⟩ => exact (rowByColumns_lhs_contracted _ _).trans (contrEquiv1_symm_val dot_S1x512_S512x512_S1x512_1_0_0_1_n_n 512 rfl rfl k)
  · funext a; apply Fin.ext
    match a with
    | ⟨0, _⟩ => exact (rowByColumns_rhs_contracted _ _).trans (contrEquiv1_symm_val dot_S1x512_S512x512_S1x512_1_0_0_1_n_n 512 rfl rfl k)
    | ⟨1, _⟩ => exact rowByColumns_rhs_kept _ _

/-- A row against rows: `[1, 512] x [512, 512]`, the row's features against the matrix's second axis. -/
theorem rowByRows_apply {φ₁ φ₂ : FTy} (prec : Option ContractPrecision) (l : FVec Ideal S1x512 φ₁) (r : FVec Ideal S512x512 φ₂)
    (q : Fin 512) :
    matmul dot_S1x512_S512x512_S1x512_1_1_0_0_n_n prec l r (constant S1x512 .f32 0x00000000#32) (ix2 (0 : Fin 1) q)
      = ∑ e : Fin 512, l (ix2 (0 : Fin 1) e) * r (ix2 q e) := by
  refine Cert.LibContractSum.matmul_zero_sum dot_S1x512_S512x512_S1x512_1_1_0_0_n_n prec 512 rfl rfl l r (ix2 (0 : Fin 1) q)
    (fun e => ix2 (0 : Fin 1) e) (fun e => ix2 q e) (fun k => ?_) (fun k => ?_)
  · funext a; apply Fin.ext
    match a with
    | ⟨0, _⟩ => exact rowByRows_lhs_kept _ _
    | ⟨1, _⟩ => exact (rowByRows_lhs_contracted _ _).trans (contrEquiv1_symm_val dot_S1x512_S512x512_S1x512_1_1_0_0_n_n 512 rfl rfl k)
  · funext a; apply Fin.ext
    match a with
    | ⟨0, _⟩ => exact rowByRows_rhs_kept _ _
    | ⟨1, _⟩ => exact (rowByRows_rhs_contracted _ _).trans (contrEquiv1_symm_val dot_S1x512_S512x512_S1x512_1_1_0_0_n_n 512 rfl rfl k)

/-! ## Reshapes and the row slice, read at an index -/

variable {α : Type}

/-- One instance's slab `[1, 512, 512]` viewed as its matrix: entry (m, d) is the slab's (0, m, d). -/
theorem slabMatrix_apply (v : S1x512x512.Idx → α) (h : S1x512x512.ShapeCasts S512x512) (m d : Fin 512) :
    shapeCast S512x512 v h (ix2 m d) = v (ix3 (0 : Fin 1) m d) :=
  shapeCast_apply v h (ix2 m d) (ix3 (0 : Fin 1) m d) (by
    rw [Shape.rowMajor_val_two, Shape.rowMajor_val_three]
    show ((0 : ℕ) * 512 + m.val) * 512 + d.val = m.val * 512 + d.val
    omega)

/-- The first row of a matrix, sliced out as `[1, 512]`. -/
theorem firstRow_apply (X : S512x512.Idx → α) (h : S512x512.Slices ![0, 0] S1x512) (d : Fin 512) :
    extractStridedSlice S1x512 ![0, 0] X h (ix2 (0 : Fin 1) d) = X (ix2 (0 : Fin 512) d) :=
  extractStridedSlice_apply ![0, 0] X h (ix2 (0 : Fin 1) d) (ix2 (0 : Fin 512) d) (fun a => by
    match a with
    | ⟨0, _⟩ => rfl
    | ⟨1, _⟩ => show d.val = 0 + d.val; omega)

/-- The group's rows flattened: row `g * 512 + m` of `[4096, 512]` is row (g, m) of `[8, 512, 512]`. -/
theorem flatten_apply (v : S8x512x512.Idx → α) (h : S8x512x512.ShapeCasts S4096x512) (g : Fin 8) (m d : Fin 512)
    (p : Fin 4096) (hp : p.val = g.val * 512 + m.val) :
    shapeCast S4096x512 v h (ix2 p d) = v (ix3 g m d) :=
  shapeCast_apply v h (ix2 p d) (ix3 g m d) (by
    rw [Shape.rowMajor_val_two, Shape.rowMajor_val_three]
    show (g.val * 512 + m.val) * 512 + d.val = p.val * 512 + d.val
    rw [hp])

/-- And back: entry (g, m, o) of the regrouped array is row `g * 512 + m` of the flat one. -/
theorem regroup_apply (v : S4096x512.Idx → α) (h : S4096x512.ShapeCasts S8x512x512) (g : Fin 8) (m o : Fin 512)
    (p : Fin 4096) (hp : p.val = g.val * 512 + m.val) :
    shapeCast S8x512x512 v h (ix3 g m o) = v (ix2 p o) :=
  shapeCast_apply v h (ix3 g m o) (ix2 p o) (by
    rw [Shape.rowMajor_val_two, Shape.rowMajor_val_three]
    show p.val * 512 + o.val = (g.val * 512 + m.val) * 512 + o.val
    rw [hp])

/-! ## The stored values -/

/-- The kept value projection: entry (g, m, o) is row (g, m) of the group against row `o` of the value weights. -/
theorem pay1_apply (v0 : Vec Ideal S512x512 .f32) (v4 : Vec Ideal S8x512x512 .f32) (g : Fin 8) (m o : Fin 512) :
    k0_pay1 (F := Ideal) v0 v4 (ix3 g m o) = ∑ d : Fin 512, v4 (ix3 g m d) * v0 (ix2 o d) := by
  have hp : (⟨g.val * 512 + m.val, by omega⟩ : Fin 4096).val = g.val * 512 + m.val := rfl
  unfold k0_pay1
  simp only [shapeCast_self]
  refine (regroup_apply _ _ g m o ⟨g.val * 512 + m.val, by omega⟩ hp).trans ?_
  refine (rowsByRows_apply none _ _ ⟨g.val * 512 + m.val, by omega⟩ o).trans ?_
  refine Finset.sum_congr rfl fun d _ => ?_
  exact congrArg (· * v0 (ix2 o d)) (flatten_apply _ _ g m d ⟨g.val * 512 + m.val, by omega⟩ hp)

/-- The scores of one instance as the body computes them: row 0 through the folded matrix, then against every row. -/
def bodyScore (W : S512x512.Idx → EReal) (X : S1x512x512.Idx → EReal) (q : Fin 512) : EReal :=
  ∑ e : Fin 512, (∑ d : Fin 512, X (ix3 (0 : Fin 1) (0 : Fin 512) d) * W (ix2 d e)) * X (ix3 (0 : Fin 1) q e)

/-- One instance's output row: the softmax of its scores against its kept value rows. -/
theorem pay2_apply (v2 : Vec Ideal S512x512 .f32) (v18 : Vec Ideal S1x512x512 .f32) (v34 : Vec Ideal S1x512x512 .bf16) (o : Fin 512) :
    k0_pay2 (F := Ideal) v2 v18 v34 (ix2 (0 : Fin 1) o)
      = ∑ m : Fin 512, softmaxRow (bodyScore v2 v18) m * v34 (ix3 (0 : Fin 1) m o) := by
  unfold k0_pay2
  simp only [shapeCast_self, shapeCast_shapeCast]
  refine (rowByColumns_apply none _ _ o).trans ?_
  refine Finset.sum_congr rfl fun m _ => ?_
  refine congrArg₂ (· * ·) ?_ (slabMatrix_apply v34 _ m o)
  refine (Cert.Lib.SoftmaxLanes.lanes_softmax_apply (R := 1) (C := 512) _ reduces_S1x512_S1 (.inl rfl) rfl rfl
    shapeCasts_S1_S1x1 broadcasts_S1x1_S1x512 (0 : Fin 1) m).trans ?_
  refine congrArg (fun s => softmaxRow s m) (funext fun q => ?_)
  refine (rowByRows_apply (some .fp32) _ _ q).trans ?_
  refine Finset.sum_congr rfl fun e _ => ?_
  refine congrArg₂ (· * ·) ?_ (slabMatrix_apply v18 _ q e)
  refine (rowByColumns_apply (some .fp32) _ _ e).trans ?_
  refine Finset.sum_congr rfl fun d _ => ?_
  exact congrArg (· * v2 (ix2 d e)) ((firstRow_apply _ _ d).trans (slabMatrix_apply v18 _ (0 : Fin 512) d))

end Cert.KernelPayloads

end
-- ==== Proof.KernelBody.lean ====
/-
  One grid point's output block as a function of its three input blocks.

  A grid point holds 8 instances: a block x0 of shape 8 x 512 x 512, the value weights x1 and the folded matrix x2.
  Row g of its output is the attention output of sequence position 0 of instance g of the block:

      s[g][q]   = sum over e of (sum over d of x0[g, 0, d] * x2[d, e]) * x0[g, q, e]
      out[g, o] = sum over m of softmax(s[g])[m] * (sum over d of x0[g, m, d] * x1[o, d]).
-/
import Idealize.ShloMosaic.PureOps.Ideal
import Idealize.ShloMosaic.Lib.ValueIdx
import proofs.«172170_j55370718380196_2_alg».proof.Proof.LibSoftmaxRow

noncomputable section

open scoped BigOperators

namespace Cert.KernelBody

open Idealize.ShloMosaic Idealize.ShloMosaic.ValueIdx Cert.Lib.SoftmaxRow

/-- The scores of instance `g` of the block. -/
def blockScore (x0 : (⟨3, ![8, 512, 512]⟩ : Shape).Idx → EReal) (x2 : (⟨2, ![512, 512]⟩ : Shape).Idx → EReal)
    (g : Fin 8) (q : Fin 512) : EReal :=
  ∑ e : Fin 512, (∑ d : Fin 512, x0 (ix3 g (0 : Fin 512) d) * x2 (ix2 d e)) * x0 (ix3 g q e)

/-- The value row `m` of instance `g` of the block at output feature `o`. -/
def blockValue (x0 : (⟨3, ![8, 512, 512]⟩ : Shape).Idx → EReal) (x1 : (⟨2, ![512, 512]⟩ : Shape).Idx → EReal)
    (g : Fin 8) (m o : Fin 512) : EReal :=
  ∑ d : Fin 512, x0 (ix3 g m d) * x1 (ix2 o d)

/-- The 8 output rows of the point. -/
def bodyRows (x0 : (⟨3, ![8, 512, 512]⟩ : Shape).Idx → EReal) (x1 x2 : (⟨2, ![512, 512]⟩ : Shape).Idx → EReal) :
    (⟨2, ![8, 512]⟩ : Shape).Idx → EReal :=
  fun y => ∑ m : Fin 512, softmaxRow (blockScore x0 x2 (y 0)) m * blockValue x0 x1 (y 0) m (y 1)

end Cert.KernelBody

end
-- ==== Proof.KernelOutRows.lean ====
/-
  The body's 8 output rows are the block formulas of its three input blocks.

  Trip g of the body's loop reads slab g of the input block and slab g of the kept value projection, both through the
  rectangle that starts at (g, 0, 0) and spans one instance: entry (0, q, d) of what it reads is entry (g, q, d) of the
  array read.  The folded matrix and the operands of the kept projection are read through the rectangle that spans a
  whole array from the origin, which reads the array itself.  The kept projection is read back from a buffer into
  which it was stored once, over the whole buffer, so the read returns the stored entries.

  With the reads named this way, the row computed by trip g is, at column o,

      sum over m of softmax(s[g])[m] * (sum over d of x0[g, m, d] * x1[o, d]),
      s[g][q] = sum over e of (sum over d of x0[g, 0, d] * x2[d, e]) * x0[g, q, e],

  which is row g of the block formulas.
-/
import proofs.«172170_j55370718380196_2_alg».proof.Proof.KernelIdealLoopRows
import proofs.«172170_j55370718380196_2_alg».proof.Proof.KernelPayloads
import proofs.«172170_j55370718380196_2_alg».proof.Proof.KernelBody
import Idealize.ShloMosaic.Lib.WholeRead
import Idealize.ShloMosaic.Lib.Pipeline.FrameBody
import Idealize.ShloMosaic.Lib.Pipeline.Value
import Idealize.ShloMosaic.Lib.ValueIdx

noncomputable section

open scoped BigOperators

namespace Cert.KernelOutRows

open Idealize.ShloMosaic Idealize.ShloMosaic.ValueIdx
open Cert.KernelIdeal Cert.KernelIdeal.Gen Cert.KernelIdeal.LoopRows Cert.KernelPayloads Cert.KernelBody Cert.Lib.SoftmaxRow

/-! ### The rectangles' indices -/

/-- Both spellings of the origin, in rank 2 and in rank 3. -/
theorem origin2 : (![0, 0] : Fin S512x512.rank → ℕ) = fun _ => 0 := by
  funext a
  match a with
  | ⟨0, _⟩ => rfl
  | ⟨1, _⟩ => rfl

theorem origin3 : (![0, 0, 0] : Fin S8x512x512.rank → ℕ) = fun _ => 0 := by
  funext a
  match a with
  | ⟨0, _⟩ => rfl
  | ⟨1, _⟩ => rfl
  | ⟨2, _⟩ => rfl

/-- The rectangle of trip k, when k is g: position (0, q, d) inside it is position (g, q, d) of the array. -/
theorem slab_idx (k : Fin k0_t1_loop.trips) (g : Fin 8) (hk : k.val = g.val) (q d : Fin 512) :
    (Rect.unit (s := S8x512x512) (k0_off1 k) S1x512x512.size (k0_off1_inb k)).toLoadRect.idx (ix3 (0 : Fin 1) q d)
      = ix3 g q d := by
  obtain ⟨-, -, h0, h1, h2⟩ := offsets k
  funext a
  apply Fin.ext
  match a with
  | ⟨0, _⟩ =>
    show k0_off1 k 0 + 1 * 0 = g.val
    rw [h0]; omega
  | ⟨1, _⟩ =>
    show k0_off1 k 1 + 1 * q.val = q.val
    rw [h1]; omega
  | ⟨2, _⟩ =>
    show k0_off1 k 2 + 1 * d.val = d.val
    rw [h2]; omega

/-! ### The reads -/

section Reads

variable {sig : RefSig} {κ : Kind} {sp : Space} {S : Shape} {e : EltTy} {Val : EltTy → Type}

/-- A read of a whole array through the rectangle that spans it from the origin is the array. -/
theorem whole_read (m : Memref sig κ sp S e) (h : m.IsWhole) (X : S.Idx → Val e) {off : Fin S.rank → ℕ}
    (hz : off = fun _ => 0) (inb : ∀ a, off a + S.size a ≤ S.size a) :
    View.readAt Val m.view (Rect.unit off S.size inb).toLoadRect (h.unread X) = X := by
  subst hz
  funext j
  rw [h.readAt_unread]
  refine congrArg X (funext fun a => Fin.ext ?_)
  show 0 + 1 * (j a).val = (j a).val
  omega

end Reads

/-- A read of trip g's slab of an array held whole: entry (0, q, d) is entry (g, q, d) of the array. -/
theorem slab_read {e : EltTy} {Val : EltTy → Type} (m : Memref sig .tc .vmem S8x512x512 e) (h : m.IsWhole)
    (X : S8x512x512.Idx → Val e) (k : Fin k0_t1_loop.trips) (g : Fin 8) (hk : k.val = g.val) (q d : Fin 512) :
    View.readAt Val m.view (Rect.unit (s := S8x512x512) (k0_off1 k) S1x512x512.size (k0_off1_inb k)).toLoadRect
        (h.unread X) (ix3 (0 : Fin 1) q d)
      = X (ix3 g q d) := by
  rw [h.readAt_unread, slab_idx k g hk q d]

/-- A read of trip g's slab of a buffer into which an array P was stored once, over the whole buffer: entry
    (0, q, o) is entry (g, q, o) of P. -/
theorem kept_read {e : EltTy} {Val : EltTy → Type} [∀ e, Nonempty (Val e)] (m : Memref sig .tc .vmem S8x512x512 e)
    (P : S8x512x512.Idx → Val e) (k : Fin k0_t1_loop.trips) (g : Fin 8) (hk : k.val = g.val) (q o : Fin 512) :
    View.readAt Val m.view (Rect.unit (s := S8x512x512) (k0_off1 k) S1x512x512.size (k0_off1_inb k)).toLoadRect
        (m.view.writes Val m.view.junk
          [⟨Rect.unit (s := S8x512x512) ![0, 0, 0] S8x512x512.size inb_S8x512x512_S8x512x512_0_0_0, P⟩])
        (ix3 (0 : Fin 1) q o)
      = P (ix3 g q o) := by
  rw [View.readAt_writes_junk_eq_canon]
  show View.canon _ ((Rect.unit (s := S8x512x512) (k0_off1 k) S1x512x512.size (k0_off1_inb k)).toLoadRect.idx
    (ix3 (0 : Fin 1) q o)) = _
  rw [View.canon_unit_zero origin3, slab_idx k g hk q o]

/-! ### The scores and the value rows of one trip -/

/-- The body's scores on a folded matrix W that is x2 and a slab X that holds instance g of x0. -/
theorem bodyScore_eq (W : S512x512.Idx → EReal) (X : S1x512x512.Idx → EReal) (x0 : S8x512x512.Idx → EReal)
    (x2 : S512x512.Idx → EReal) (g : Fin 8) (hW : W = x2)
    (hX : ∀ q d : Fin 512, X (ix3 (0 : Fin 1) q d) = x0 (ix3 g q d)) :
    bodyScore W X = blockScore x0 x2 g := by
  subst hW
  funext q
  unfold bodyScore blockScore
  simp only [hX]

/-- The kept projection of operands A that is x1 and B that is x0, at (g, m, o). -/
theorem kept_eq (A : Vec Ideal S512x512 .f32) (B : Vec Ideal S8x512x512 .f32) (x0 : Vec Ideal S8x512x512 .f32)
    (x1 : Vec Ideal S512x512 .f32) (hA : A = x1) (hB : B = x0) (g : Fin 8) (m o : Fin 512) :
    k0_pay1 (F := Ideal) A B (ix3 g m o) = blockValue x0 x1 g m o := by
  subst hA; subst hB
  exact pay1_apply A B g m o

/-! ### The rows -/

/-- The 8 rows the body's loop leaves are the block formulas of the three input blocks. -/
theorem outRows_eq_bodyRows (arg1 : Memref sig .tc .vmem S8x512x512 .f32) (harg1 : arg1.IsWhole)
    (arg2 : Memref sig .tc .vmem S512x512 .f32) (harg2 : arg2.IsWhole)
    (arg3 : Memref sig .tc .vmem S512x512 .f32) (harg3 : arg3.IsWhole)
    (arg5 : Memref sig .tc .vmem S8x512x512 .bf16)
    (x0 : Vec Ideal S8x512x512 .f32) (x1 x2 : Vec Ideal S512x512 .f32) :
    outRows (F := Ideal) arg1 harg1 arg2 harg2 arg3 harg3 arg5 x0 x1 x2 = bodyRows x0 x1 x2 := by
  funext y
  obtain ⟨g, o, rfl⟩ : ∃ (g : Fin 8) (o : Fin 512), y = ix2 g o := ⟨y 0, y 1, eq_ix2 y⟩
  unfold outRows rows tripRow
  refine (pay2_apply _ _ _ o).trans ?_
  show _ = ∑ m : Fin 512, softmaxRow (blockScore x0 x2 g) m * blockValue x0 x1 g m o
  refine Finset.sum_congr rfl fun m _ => congrArg₂ (· * ·) ?_ ?_
  · refine congrArg (fun s => softmaxRow s m) ?_
    exact bodyScore_eq _ _ x0 x2 g (whole_read arg3 harg3 x2 origin2 _)
      (fun q d => slab_read arg1 harg1 x0 _ g rfl q d)
  · refine (kept_read arg5 _ _ g rfl m o).trans ?_
    exact kept_eq _ _ x0 x1 (whole_read arg2 harg2 x1 origin2 _) (whole_read arg1 harg1 x0 origin3 _) g m o

end Cert.KernelOutRows

end
-- ==== Proof.KernelBlocks.lean ====
/-
  The kernel's windows, block by block.

  The kernel runs over a grid of 32 points.  At point t it is handed
    * rows 8t … 8t + 7 of the input, viewed as 256 matrices of 512 x 512 (an instance is one row of that view),
    * the whole value weights and the whole folded weights, the same at every point,
  and it writes rows 8t … 8t + 7 of the 256 x 512 result.

  A window's block at point t starts, on every axis, at (block index) x (block size), and an entry of the block sits
  at that offset plus its coordinate inside the block.  The block indices are fixed numbers or the point itself, which
  is decided once over the 32 points; everything after that is arithmetic on one coordinate at a time.

  Stated here: what each input block holds at a symbolic point, coordinate by coordinate; which indices of the result
  the output block of a point covers; that the 32 output blocks together cover the result; and where an entry of an
  output block lands in the result.
-/
import proofs.«172170_j55370718380196_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelBlocks

open Cert.KernelIdeal Cert.KernelIdeal.Gen

variable {F : FTy → Type} [FloatOps F]
variable (m : (ℓ : Loc nD τ sig) → Buf (Elt F) ℓ)

/-- The block index of every window at every point, decided over the grid: the input and the result move with the
    point on their first axis and stay at 0 on the others; the two weight arrays stay at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 32 points. -/
theorem point_lt (t : Fin cfg0.N) : t.val < 32 := lt_of_lt_of_eq t.isLt N_0

/-- Row `g` of the block of point `t`, as a row of the whole array: 8t + g. -/
abbrev blockRow (t : Fin cfg0.N) (g : Fin 8) : Fin 256 :=
  ⟨t.val * 8 + g.val, by have := point_lt t; have := g.isLt; omega⟩

/-- The input block of point `t` at (g, q, d) is the input at row 8t + g, same (q, d). -/
theorem input_block_apply (c : Dev nD) (t : Fin cfg0.N) (g : Fin 8) (q d : Fin 512) :
    (iblk m c 0 t : S8x512x512.Idx → Elt F .f32) (ix3 g q d)
      = (V m c main_v0 : S256x512x512.Idx → Elt F .f32) (ix3 (blockRow t g) q d) := by
  obtain ⟨e0, e1, e2, -⟩ := index_facts t
  unfold iblk
  rw [View.read_apply]
  show (V m c main_v0 : S256x512x512.Idx → Elt F .f32) _ = _
  congr 1
  funext a; apply Fin.ext
  match a with
  | ⟨0, _⟩ => show win0_0.index t (0 : Fin 3) * 8 + 1 * g.val = t.val * 8 + g.val; rw [e0]; omega
  | ⟨1, _⟩ => show win0_0.index t (1 : Fin 3) * 512 + 1 * q.val = q.val; rw [e1]; omega
  | ⟨2, _⟩ => show win0_0.index t (2 : Fin 3) * 512 + 1 * d.val = d.val; rw [e2]; omega

/-- The value weights' block is the whole array at every point. -/
theorem value_block_apply (c : Dev nD) (t : Fin cfg0.N) (o d : Fin 512) :
    (iblk m c 1 t : S512x512.Idx → Elt F .f32) (ix2 o d) = (V m c main_arg3 : S512x512.Idx → Elt F .f32) (ix2 o d) := by
  obtain ⟨-, -, -, e0, e1, -⟩ := index_facts t
  unfold iblk
  rw [View.read_apply]
  show (V m c main_arg3 : S512x512.Idx → Elt F .f32) _ = _
  congr 1
  funext a; apply Fin.ext
  match a with
  | ⟨0, _⟩ => show win0_1.index t (0 : Fin 2) * 512 + 1 * o.val = o.val; rw [e0]; omega
  | ⟨1, _⟩ => show win0_1.index t (1 : Fin 2) * 512 + 1 * d.val = d.val; rw [e1]; omega

/-- The folded weights' block is the whole array at every point. -/
theorem folded_block_apply (c : Dev nD) (t : Fin cfg0.N) (d e : Fin 512) :
    (iblk m c 2 t : S512x512.Idx → Elt F .f32) (ix2 d e) = (V m c main_v5 : S512x512.Idx → Elt F .f32) (ix2 d e) := by
  obtain ⟨-, -, -, -, -, e0, e1, -⟩ := index_facts t
  unfold iblk
  rw [View.read_apply]
  show (V m c main_v5 : S512x512.Idx → Elt F .f32) _ = _
  congr 1
  funext a; apply Fin.ext
  match a with
  | ⟨0, _⟩ => show win0_2.index t (0 : Fin 2) * 512 + 1 * d.val = d.val; rw [e0]; omega
  | ⟨1, _⟩ => show win0_2.index t (1 : Fin 2) * 512 + 1 * e.val = e.val; rw [e1]; omega

/-- An index of the result lies in the output block of point `t` exactly when its row is one of 8t … 8t + 7 (the
    block spans every column). -/
theorem out_block_mem (t : Fin cfg0.N) (i : S256x512.Idx) :
    i ∈ ((cfg0.win 3).blk t).view.set ↔ t.val * 8 ≤ (i 0).val ∧ (i 0).val < t.val * 8 + 8 := by
  obtain ⟨-, -, -, -, -, -, -, e0, e1⟩ := index_facts t
  show i ∈ ((View.whole main_v6).slice (win0_3.rect t)).set ↔ _
  rw [View.set_slice_whole, Rect.mem_set_unit]
  have h1 : (i 1).val < 512 := (i 1).isLt
  constructor
  · intro h
    have b0 : win0_3.index t (0 : Fin 2) * 8 ≤ (i 0).val ∧ (i 0).val < win0_3.index t (0 : Fin 2) * 8 + 8 := h 0
    omega
  · intro h a
    match a with
    | ⟨0, _⟩ => show win0_3.index t (0 : Fin 2) * 8 ≤ (i 0).val ∧ (i 0).val < win0_3.index t (0 : Fin 2) * 8 + 8; omega
    | ⟨1, _⟩ => show win0_3.index t (1 : Fin 2) * 512 ≤ (i 1).val ∧ (i 1).val < win0_3.index t (1 : Fin 2) * 512 + 512; omega

/-- The output blocks cover the result: the index (r, o) lies in the block of point r / 8, and every point writes its
    block back. -/
theorem out_cover (i : S256x512.Idx) :
    ∃ t : Fin cfg0.N, (cfg0.win 3).flush t = true ∧ i ∈ ((cfg0.win 3).blk t).view.set := by
  have h0 : (i 0).val < 256 := (i 0).isLt
  refine ⟨⟨(i 0).val / 8, lt_of_lt_of_eq (by omega : (i 0).val / 8 < 32) N_0.symm⟩, flush0_3 _, ?_⟩
  rw [out_block_mem]
  show (i 0).val / 8 * 8 ≤ (i 0).val ∧ (i 0).val < (i 0).val / 8 * 8 + 8
  omega

/-- Entry (g, o) of the output block of point `t` is entry (8t + g, o) of the result. -/
theorem out_block_emb (t : Fin cfg0.N) (g : Fin 8) (o : Fin 512) :
    (((cfg0.win 3).blk t).view.emb (ix2 g o : S8x512.Idx) : S256x512.Idx) = ix2 (blockRow t g) o := by
  obtain ⟨-, -, -, -, -, -, -, e0, e1⟩ := index_facts t
  funext a; apply Fin.ext
  match a with
  | ⟨0, _⟩ => show win0_3.index t (0 : Fin 2) * 8 + 1 * g.val = t.val * 8 + g.val; rw [e0]; omega
  | ⟨1, _⟩ => show win0_3.index t (1 : Fin 2) * 512 + 1 * o.val = o.val; rw [e1]; omega

end Cert.KernelBlocks

end
-- ==== Proof.KernelRows.lean ====
/-
  The kernel's output rows as one function of what its three input windows hold.

  The region works on the input regrouped as 256 instances X[n] (each 512 x 512), on a folded matrix W and on the
  value weights.  Row n of its output is the attention output of sequence position 0 of instance n:

      s[n][q]   = sum over e of (sum over d of X[n][0, d] * W[d, e]) * X[n][q, e]          (the 512 scores)
      out[n, o] = sum over m of softmax(s[n])[m] * (sum over d of X[n][m, d] * Wv[o, d]).
-/
import Idealize.ShloMosaic.PureOps.Ideal
import Idealize.ShloMosaic.Lib.ValueIdx
import proofs.«172170_j55370718380196_2_alg».proof.Proof.LibSoftmaxRow

noncomputable section

open scoped BigOperators

namespace Cert.KernelRows

open Idealize.ShloMosaic Idealize.ShloMosaic.ValueIdx Cert.Lib.SoftmaxRow

/-- The scores of instance `n`: its row 0 through the folded matrix, against each of its rows. -/
def instanceScore (X : (⟨3, ![256, 512, 512]⟩ : Shape).Idx → EReal) (W : (⟨2, ![512, 512]⟩ : Shape).Idx → EReal)
    (n : Fin 256) (q : Fin 512) : EReal :=
  ∑ e : Fin 512, (∑ d : Fin 512, X (ix3 n (0 : Fin 512) d) * W (ix2 d e)) * X (ix3 n q e)

/-- The value row `m` of instance `n` at output feature `o`. -/
def instanceValue (X : (⟨3, ![256, 512, 512]⟩ : Shape).Idx → EReal) (Wv : (⟨2, ![512, 512]⟩ : Shape).Idx → EReal)
    (n : Fin 256) (m o : Fin 512) : EReal :=
  ∑ d : Fin 512, X (ix3 n m d) * Wv (ix2 o d)

/-- The 256 output rows. -/
def kernelRows (X : (⟨3, ![256, 512, 512]⟩ : Shape).Idx → EReal) (W Wv : (⟨2, ![512, 512]⟩ : Shape).Idx → EReal) :
    (⟨2, ![256, 512]⟩ : Shape).Idx → EReal :=
  fun y => ∑ m : Fin 512, softmaxRow (instanceScore X W (y 0)) m * instanceValue X Wv (y 0) m (y 1)

end Cert.KernelRows

end
-- ==== Proof.KernelPointRows.lean ====
/-
  One grid point's output rows are the whole-array rows read through that point's output block.

  The 256 output rows are one function of the three whole arrays: row n is the attention output of sequence position 0
  of instance n.  A grid point t computes 8 rows from its three input blocks by the same formula, with instance g of its
  block in place of instance n.  Since the input block of point t holds instances 8t … 8t + 7 and the two weight blocks
  are the whole weight arrays, row g of the point is row 8t + g of the whole function; and entry (g, o) of the point's
  output block is entry (8t + g, o) of the result.  So what the point computes is the whole function read through its
  output block.
-/
import proofs.«172170_j55370718380196_2_alg».proof.Proof.KernelBlocks
import proofs.«172170_j55370718380196_2_alg».proof.Proof.KernelBody
import proofs.«172170_j55370718380196_2_alg».proof.Proof.KernelRows
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx

namespace Cert.KernelPointRows

open Cert.KernelIdeal Cert.KernelIdeal.Gen Cert.KernelBody Cert.KernelRows Cert.KernelBlocks Cert.Lib.SoftmaxRow

variable (m : (ℓ : Loc nD τ sig) → Buf (Elt Ideal) ℓ)

/-- The scores of instance g of the block of point t are the scores of instance 8t + g. -/
theorem block_score (c : Dev nD) (t : Fin cfg0.N) (g : Fin 8) (q : Fin 512) :
    blockScore (iblk m c 0 t : S8x512x512.Idx → EReal) (iblk m c 2 t : S512x512.Idx → EReal) g q
      = instanceScore (V m c main_v0 : S256x512x512.Idx → EReal) (V m c main_v5 : S512x512.Idx → EReal) (blockRow t g) q := by
  unfold blockScore instanceScore
  refine Finset.sum_congr rfl fun e _ => ?_
  rw [input_block_apply m c t g q e]
  refine congrArg (· * _) (Finset.sum_congr rfl fun d _ => ?_)
  rw [input_block_apply m c t g (0 : Fin 512) d, folded_block_apply m c t d e]

/-- The value rows of instance g of the block of point t are the value rows of instance 8t + g. -/
theorem block_value (c : Dev nD) (t : Fin cfg0.N) (g : Fin 8) (p o : Fin 512) :
    blockValue (iblk m c 0 t : S8x512x512.Idx → EReal) (iblk m c 1 t : S512x512.Idx → EReal) g p o
      = instanceValue (V m c main_v0 : S256x512x512.Idx → EReal) (V m c main_arg3 : S512x512.Idx → EReal) (blockRow t g) p o := by
  unfold blockValue instanceValue
  refine Finset.sum_congr rfl fun d _ => ?_
  rw [input_block_apply m c t g p d, value_block_apply m c t o d]

/-- THE POINT'S ROWS: what point t computes from its three input blocks is the whole-array function read through the
    output block of point t. -/
theorem point_rows (c : Dev nD) (t : Fin cfg0.N) :
    bodyRows (iblk m c 0 t : S8x512x512.Idx → EReal) (iblk m c 1 t : S512x512.Idx → EReal) (iblk m c 2 t : S512x512.Idx → EReal)
      = ((cfg0.win 3).blk t).view.read (Elt Ideal)
          (kernelRows (V m c main_v0 : S256x512x512.Idx → EReal) (V m c main_v5 : S512x512.Idx → EReal)
            (V m c main_arg3 : S512x512.Idx → EReal)) := by
  funext y
  obtain ⟨g, o, rfl⟩ : ∃ (g : Fin 8) (o : Fin 512), y = ix2 g o := ⟨y 0, y 1, eq_ix2 y⟩
  rw [View.read_apply]
  show _ = kernelRows (V m c main_v0 : S256x512x512.Idx → EReal) (V m c main_v5 : S512x512.Idx → EReal)
    (V m c main_arg3 : S512x512.Idx → EReal) (((cfg0.win 3).blk t).view.emb (ix2 g o : S8x512.Idx) : S256x512.Idx)
  rw [out_block_emb]
  show (∑ p : Fin 512, softmaxRow (blockScore (iblk m c 0 t : S8x512x512.Idx → EReal) (iblk m c 2 t : S512x512.Idx → EReal) g) p
        * blockValue (iblk m c 0 t : S8x512x512.Idx → EReal) (iblk m c 1 t : S512x512.Idx → EReal) g p o)
      = ∑ p : Fin 512, softmaxRow (instanceScore (V m c main_v0 : S256x512x512.Idx → EReal) (V m c main_v5 : S512x512.Idx → EReal) (blockRow t g)) p
        * instanceValue (V m c main_v0 : S256x512x512.Idx → EReal) (V m c main_arg3 : S512x512.Idx → EReal) (blockRow t g) p o
  refine Finset.sum_congr rfl fun p _ => ?_
  rw [show blockScore (iblk m c 0 t : S8x512x512.Idx → EReal) (iblk m c 2 t : S512x512.Idx → EReal) g
        = instanceScore (V m c main_v0 : S256x512x512.Idx → EReal) (V m c main_v5 : S512x512.Idx → EReal) (blockRow t g) from
      funext fun q => block_score m c t g q,
    block_value m c t g p o]

end Cert.KernelPointRows

end
-- ==== Proof.AttentionSpec.lean ====
/-
  What both programs compute, as functions of the four argument arrays on the extended reals.

  For each of the 8 x 32 instances the input holds a 512 x 512 matrix X (rows are sequence positions, columns are
  features).  The result row of an instance is the attention output of sequence position 0 only:

      out[o] = sum over m of softmax(s)[m] * V[m, o],        V[m, o] = sum over d of X[m, d] * Wv[o, d],

  where s[m] is the score of position 0 against position m, divided by the temperature 512 ^ (1/2).

  The two programs differ only in how the score is arranged.  The reference projects both positions first and divides
  the query:      s[m] = sum over o of ((sum over d of X[0, d] * Wq[o, d]) / T) * (sum over e of X[m, e] * Wk[o, e]).
  The kernel folds the two projections and the temperature into one matrix beforehand:
                  s[m] = sum over e of (sum over d of X[0, d] * ((sum over o of Wq[o, d] * Wk[o, e]) / T)) * X[m, e].
  Over the reals both are (1 / T) times the triple sum of X[0, d] * Wq[o, d] * Wk[o, e] * X[m, e].
-/
import Idealize.ShloMosaic.PureOps.Ideal
import Idealize.ShloMosaic.Lib.ValueIdx
import proofs.«172170_j55370718380196_2_alg».proof.Proof.LibSoftmaxRow

noncomputable section

open scoped BigOperators

namespace Cert.AttentionSpec

open Idealize.ShloMosaic Idealize.ShloMosaic.ValueIdx Cert.Lib.SoftmaxRow

/-- The temperature: 512 raised to the power one half, both numbers read from their f32 words. -/
def temperature : EReal :=
  Ideal.pow (Ideal.ofBits .f32 0x44000000#32) (Ideal.ofBits .f32 0x3F000000#32)

/-- The value projection of one instance: row `m` of X against row `o` of the value weights. -/
def valueRow (X Wv : Fin 512 → Fin 512 → EReal) (m o : Fin 512) : EReal :=
  ∑ d : Fin 512, X m d * Wv o d

/-- The reference's score of position 0 against position `m`: both positions projected, the query divided by the
    temperature, then the inner product over the projected features. -/
def scoreRef (X Wq Wk : Fin 512 → Fin 512 → EReal) (m : Fin 512) : EReal :=
  ∑ o : Fin 512, Ideal.div (∑ d : Fin 512, X 0 d * Wq o d) temperature * (∑ e : Fin 512, X m e * Wk o e)

/-- The folded matrix of the kernel: the two projections contracted over the projected features, over the temperature. -/
def foldedWeights (Wq Wk : Fin 512 → Fin 512 → EReal) (d e : Fin 512) : EReal :=
  Ideal.div (∑ o : Fin 512, Wq o d * Wk o e) temperature

/-- The kernel's score of position 0 against position `m`: position 0 through the folded matrix, then against the
    raw features of position `m`. -/
def scoreKer (X Wq Wk : Fin 512 → Fin 512 → EReal) (m : Fin 512) : EReal :=
  ∑ e : Fin 512, (∑ d : Fin 512, X 0 d * foldedWeights Wq Wk d e) * X m e

/-- The attention output of one query row: the softmax of its scores against the value rows. -/
def attend (s : Fin 512 → EReal) (V : Fin 512 → Fin 512 → EReal) (o : Fin 512) : EReal :=
  ∑ m : Fin 512, softmaxRow s m * V m o

/-- The matrix of instance `(b, i)` of the input. -/
def slab (x : (⟨4, ![8, 32, 512, 512]⟩ : Shape).Idx → EReal) (b : Fin 8) (i : Fin 32) : Fin 512 → Fin 512 → EReal :=
  fun m d => x (ix4 b i m d)

/-- A weight array as a function of its two coordinates. -/
def mat (W : (⟨2, ![512, 512]⟩ : Shape).Idx → EReal) : Fin 512 → Fin 512 → EReal :=
  fun o d => W (ix2 o d)

/-- The result with the scores arranged as the reference arranges them. -/
def referenceResult (x : (⟨4, ![8, 32, 512, 512]⟩ : Shape).Idx → EReal) (Wq Wk Wv : (⟨2, ![512, 512]⟩ : Shape).Idx → EReal) :
    (⟨3, ![8, 32, 512]⟩ : Shape).Idx → EReal :=
  fun j => attend (scoreRef (slab x (j 0) (j 1)) (mat Wq) (mat Wk)) (valueRow (slab x (j 0) (j 1)) (mat Wv)) (j 2)

/-- The result with the scores arranged as the kernel arranges them. -/
def kernelResult (x : (⟨4, ![8, 32, 512, 512]⟩ : Shape).Idx → EReal) (Wq Wk Wv : (⟨2, ![512, 512]⟩ : Shape).Idx → EReal) :
    (⟨3, ![8, 32, 512]⟩ : Shape).Idx → EReal :=
  fun j => attend (scoreKer (slab x (j 0) (j 1)) (mat Wq) (mat Wk)) (valueRow (slab x (j 0) (j 1)) (mat Wv)) (j 2)

/-- Where the two arrangements of the score agree, the two results agree. -/
theorem kernelResult_eq_referenceResult (x : (⟨4, ![8, 32, 512, 512]⟩ : Shape).Idx → EReal)
    (Wq Wk Wv : (⟨2, ![512, 512]⟩ : Shape).Idx → EReal)
    (h : ∀ (b : Fin 8) (i : Fin 32) (m : Fin 512),
      scoreKer (slab x b i) (mat Wq) (mat Wk) m = scoreRef (slab x b i) (mat Wq) (mat Wk) m) :
    kernelResult x Wq Wk Wv = referenceResult x Wq Wk Wv := by
  funext j
  unfold kernelResult referenceResult
  rw [show scoreKer (slab x (j 0) (j 1)) (mat Wq) (mat Wk) = scoreRef (slab x (j 0) (j 1)) (mat Wq) (mat Wk) from
    funext fun m => h (j 0) (j 1) m]

end Cert.AttentionSpec

end
-- ==== Proof.LibHostContractSum.lean ====
/-
  The host's matrix product with ONE contracted axis, read at an output index on the extended reals.

  The product's entry at `j` is the sum, over the contraction index, of the left operand at `lhsIdx j ·` times the right
  operand at `rhsIdx j ·`.  When one axis of extent `K` is contracted, the contraction index is its one coordinate, so
  the entry is a sum over `k : Fin K` of the operands at whatever indices the dimension record names there — given by
  the caller as two families `li`, `ri` with the two equations that say so.  Nothing depends on which axes are contracted.
-/
import Idealize.ShloMosaic.PureOps.Ideal.Laws
import Idealize.ShloMosaic.Lib.ValueIdx

namespace Cert.LibHostContractSum

open Idealize.ShloMosaic Idealize.ShloMosaic.ValueIdx

/-- A host `dot_general` with one contracted axis of extent `K`: at output index `j` it is
    `∑ k : Fin K, lhs (li k) * rhs (ri k)`, where `li k` / `ri k` are the operand indices the dimension record gives at
    `j` and contraction coordinate `k` (`hl`, `hr`). -/
theorem dotGeneral_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    Host.dotGeneral D prec lhs rhs j = ∑ k : Fin K, lhs (li k) * rhs (ri k) := by
  show FloatOps.dotGeneral D prec .single lhs rhs j = _
  rw [Ideal.dotGeneral_apply, ← Equiv.sum_comp (contrEquiv1 D K hrank hsize).symm]
  exact Finset.sum_congr rfl fun k _ => by rw [hl k, hr k]

end Cert.LibHostContractSum
-- ==== Proof.KernelWindows.lean ====
/-
  The operations around the region, read at an index, and the region's rows as the kernel's result.

  Three operations prepare or finish the region's arrays.

  * The folded matrix.  The query weights are transposed, multiplied into the key weights, and every entry is divided
    by the temperature.  Entry (d, e) of the product is the sum over o of Wq[o, d] * Wk[o, e]: the transposition turns
    the query weights' second coordinate into the product's row, and the contracted coordinate o runs over the first
    coordinate of both.  The divisor is one number laid out over the whole matrix, the temperature, so entry (d, e) of
    the quotient is the folded weight at (d, e).

  * The regrouping of the input.  The 8 x 32 instances are renumbered as 256 by n = 32 * b + i, the two inner
    coordinates untouched: both arrays list their entries in the same row-major order, position
    ((32 * b + i) * 512 + m) * 512 + d.

  * The regrouping of the output, the same renumbering backwards on rows of 512: position (32 * b + i) * 512 + o.

  With the three read this way, row n = 32 * b + i of the region's output, entry o, is the attention output of
  position 0 of instance (b, i) at feature o with the scores arranged as the kernel arranges them.
-/
import proofs.«172170_j55370718380196_2_alg».proof.KernelIdeal
import proofs.«172170_j55370718380196_2_alg».proof.Proof.Gen.KernelIdeal
import proofs.«172170_j55370718380196_2_alg».proof.Proof.AttentionSpec
import proofs.«172170_j55370718380196_2_alg».proof.Proof.KernelRows
import proofs.«172170_j55370718380196_2_alg».proof.Proof.LibHostContractSum
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelWindows

open Idealize.ShloMosaic Idealize.ShloMosaic.ValueIdx
open Cert.KernelIdeal Cert.KernelIdeal.Facts₀ Cert.AttentionSpec Cert.KernelRows Cert.Lib.SoftmaxRow

/-! ### The folded matrix -/

/-- The left operand of the product is read at the output's row; that coordinate is not contracted. -/
theorem lhs_coord0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

/-- The left operand's second coordinate is the contracted one. -/
theorem lhs_coord1 (j : S512x512.Idx) (q : dot_S512x512_S512x512_S512x512_1_0_0_1_n_n.contr.Idx) :
    (dot_S512x512_S512x512_S512x512_1_0_0_1_n_n.lhsIdx j q 1).val = (q ⟨0, by decide⟩).val :=
  dot_S512x512_S512x512_S512x512_1_0_0_1_n_n.lhsIdx_val_of_single rfl j q

/-- The right operand's first coordinate is the contracted one. -/
theorem rhs_coord0 (j : S512x512.Idx) (q : dot_S512x512_S512x512_S512x512_1_0_0_1_n_n.contr.Idx) :
    (dot_S512x512_S512x512_S512x512_1_0_0_1_n_n.rhsIdx j q 0).val = (q ⟨0, by decide⟩).val :=
  dot_S512x512_S512x512_S512x512_1_0_0_1_n_n.rhsIdx_val_of_single rfl j q

/-- The right operand is read at the output's column; that coordinate is not contracted. -/
theorem rhs_coord1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The transposed matrix at (d, o) is the matrix at (o, d). -/
theorem transposed_apply (w : S512x512.Idx → EReal) (d o : Fin 512) :
    transpose (α := EReal) S512x512 [1, 0] w transposes_S512x512_S512x512_1_0 (ix2 d o) = w (ix2 o d) := by
  refine transpose_apply [1, 0] w transposes_S512x512_S512x512_1_0 (ix2 d o) (ix2 o d) fun b => ?_
  match b with
  | ⟨0, _⟩ => rfl
  | ⟨1, _⟩ => rfl

/-- The product of the transposed query weights and the key weights at (d, e): the sum over o of Wq[o, d] * Wk[o, e]. -/
theorem product_apply (wq wk : FVec Ideal S512x512 .f32) (d e : Fin 512) :
    Host.dotGeneral (φ₁ := .f32) (φ₂ := .f32) dot_S512x512_S512x512_S512x512_1_0_0_1_n_n none
        (transpose (α := EReal) S512x512 [1, 0] wq transposes_S512x512_S512x512_1_0) wk (ix2 d e)
      = ∑ o : Fin 512, wq (ix2 o d) * wk (ix2 o e) := by
  rw [Cert.LibHostContractSum.dotGeneral_sum dot_S512x512_S512x512_S512x512_1_0_0_1_n_n none 512 rfl rfl _ _ (ix2 d e)
    (fun k => ix2 d k) (fun k => ix2 k e)
    (fun k => funext fun a => Fin.ext (by
      have hk := contrEquiv1_symm_val dot_S512x512_S512x512_S512x512_1_0_0_1_n_n 512 rfl rfl k
      match a with
      | ⟨0, _⟩ => exact lhs_coord0 _ _
      | ⟨1, _⟩ => exact (lhs_coord1 _ _).trans hk))
    (fun k => funext fun a => Fin.ext (by
      have hk := contrEquiv1_symm_val dot_S512x512_S512x512_S512x512_1_0_0_1_n_n 512 rfl rfl k
      match a with
      | ⟨0, _⟩ => exact (rhs_coord0 _ _).trans hk
      | ⟨1, _⟩ => exact rhs_coord1 _ _))]
  exact Finset.sum_congr rfl fun o _ => by rw [transposed_apply wq d o]

/-- The folded matrix at (d, e). -/
theorem folded_apply (wq wk : FVec Ideal S512x512 .f32) (d e : Fin 512) :
    Host.divf (F := Ideal)
          (Host.dotGeneral (φ₁ := .f32) (φ₂ := .f32) dot_S512x512_S512x512_S512x512_1_0_0_1_n_n none
            (transpose (α := EReal) S512x512 [1, 0] wq transposes_S512x512_S512x512_1_0) wk)
          (broadcastInDim S512x512 ![] bcast_S_S512x512
            (Host.powf (F := Ideal) (constant (F := Ideal) S_ .f32 0x44000000#32) (constant (F := Ideal) S_ .f32 0x3F000000#32))) (ix2 d e)
      = foldedWeights (mat wq) (mat wk) d e := by
  show Ideal.div _ _ = _
  rw [broadcastInDim_scalar_apply, product_apply wq wk d e]
  rfl

/-! ### The two regroupings -/

/-- The input regrouped as 256 instances, at instance n = 32 * b + i: the input at instance (b, i). -/
theorem regrouped_apply (x : FVec Ideal S8x32x512x512 .f32) (b : Fin 8) (i : Fin 32) (m d : Fin 512) (n : Fin 256)
    (hn : n.val = b.val * 32 + i.val) :
    shapeCast S256x512x512 x shapeCasts_S8x32x512x512_S256x512x512 (ix3 n m d) = x (ix4 b i m d) := by
  refine shapeCast_apply x shapeCasts_S8x32x512x512_S256x512x512 (ix3 n m d) (ix4 b i m d) ?_
  rw [Shape.rowMajor_val_four, Shape.rowMajor_val_three]
  show ((b.val * 32 + i.val) * 512 + m.val) * 512 + d.val = (n.val * 512 + m.val) * 512 + d.val
  rw [hn]

/-- The 256 output rows regrouped as 8 x 32, at (b, i): row n = 32 * b + i. -/
theorem regroupOut_apply (y : S256x512.Idx → EReal) (b : Fin 8) (i : Fin 32) (o : Fin 512) (n : Fin 256)
    (hn : n.val = b.val * 32 + i.val) :
    shapeCast S8x32x512 y shapeCasts_S256x512_S8x32x512 (ix3 b i o) = y (ix2 n o) := by
  refine shapeCast_apply y shapeCasts_S256x512_S8x32x512 (ix3 b i o) (ix2 n o) ?_
  rw [Shape.rowMajor_val_two, Shape.rowMajor_val_three]
  show n.val * 512 + o.val = (b.val * 32 + i.val) * 512 + o.val
  rw [hn]

/-! ### The region's rows as the kernel's result -/

/-- The scores of instance n of arrays that hold, at n, the rows of instance (b, i) and the folded weights. -/
theorem instanceScore_eq (X : S256x512x512.Idx → EReal) (W : S512x512.Idx → EReal)
    (x : S8x32x512x512.Idx → EReal) (wq wk : S512x512.Idx → EReal) (b : Fin 8) (i : Fin 32) (n : Fin 256)
    (hX : ∀ m d : Fin 512, X (ix3 n m d) = x (ix4 b i m d))
    (hW : ∀ d e : Fin 512, W (ix2 d e) = foldedWeights (mat wq) (mat wk) d e) :
    instanceScore X W n = scoreKer (slab x b i) (mat wq) (mat wk) := by
  funext q
  unfold instanceScore scoreKer slab
  simp only [hX, hW]

/-- The value rows of instance n of an array that holds, at n, the rows of instance (b, i). -/
theorem instanceValue_eq (X : S256x512x512.Idx → EReal) (x : S8x32x512x512.Idx → EReal) (wv : S512x512.Idx → EReal)
    (b : Fin 8) (i : Fin 32) (n : Fin 256) (hX : ∀ m d : Fin 512, X (ix3 n m d) = x (ix4 b i m d)) :
    instanceValue X wv n = valueRow (slab x b i) (mat wv) := by
  funext m o
  unfold instanceValue valueRow slab mat
  simp only [hX]

/-- The region's 256 rows on the regrouped input, the folded matrix and the value weights, regrouped as 8 x 32, are the
    result with the scores arranged as the kernel arranges them. -/
theorem rows_eq_kernelResult (x : FVec Ideal S8x32x512x512 .f32) (wq wk wv : FVec Ideal S512x512 .f32) :
    shapeCast S8x32x512
        (kernelRows (shapeCast S256x512x512 x shapeCasts_S8x32x512x512_S256x512x512)
          (Host.divf (F := Ideal)
          (Host.dotGeneral (φ₁ := .f32) (φ₂ := .f32) dot_S512x512_S512x512_S512x512_1_0_0_1_n_n none
            (transpose (α := EReal) S512x512 [1, 0] wq transposes_S512x512_S512x512_1_0) wk)
          (broadcastInDim S512x512 ![] bcast_S_S512x512
            (Host.powf (F := Ideal) (constant (F := Ideal) S_ .f32 0x44000000#32) (constant (F := Ideal) S_ .f32 0x3F000000#32)))) wv)
        shapeCasts_S256x512_S8x32x512
      = kernelResult x wq wk wv := by
  funext j
  obtain ⟨b, i, o, rfl⟩ : ∃ (b : Fin 8) (i : Fin 32) (o : Fin 512), j = ix3 b i o := ⟨j 0, j 1, j 2, eq_ix3 j⟩
  have hb := b.isLt
  have hi := i.isLt
  rw [regroupOut_apply _ b i o ⟨b.val * 32 + i.val, by omega⟩ rfl]
  show ∑ m : Fin 512, softmaxRow (instanceScore _ _ ⟨b.val * 32 + i.val, by omega⟩) m
        * instanceValue _ _ ⟨b.val * 32 + i.val, by omega⟩ m o
      = ∑ m : Fin 512, softmaxRow (scoreKer (slab x b i) (mat wq) (mat wk)) m * valueRow (slab x b i) (mat wv) m o
  rw [instanceScore_eq _ _ x wq wk b i ⟨b.val * 32 + i.val, by omega⟩
      (fun m d => regrouped_apply x b i m d _ rfl) (fun d e => folded_apply wq wk d e),
    instanceValue_eq _ x wv b i ⟨b.val * 32 + i.val, by omega⟩ (fun m d => regrouped_apply x b i m d _ rfl)]

end Cert.KernelWindows

end
-- ==== Proof.KernelHost.lean ====
/-
  What the region finds in its windows, and what the last host operation makes of its output.

  Before the region the program regroups the input, 8 x 32 instances of a 512 x 512 matrix, as 256 instances, and
  builds the folded matrix: the query weights transposed, multiplied into the key weights, every entry divided by the
  temperature.  The value weights are used as they are.  After the region it regroups the 256 output rows as 8 x 32.
-/
import proofs.«172170_j55370718380196_2_alg».proof.Proof.Gen.KernelIdeal.Frame.Runs
import Idealize.ShloMosaic.Lib.StableHlo.Run
import Idealize.ShloMosaic.Lib.Pipeline.Value
import Idealize.ShloMosaic.Lib.ValueIdx

noncomputable section

namespace Cert.KernelHost

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The regrouped input the first window reads. -/
theorem V_input (c : Dev nD) :
    (V m c main_v0 : S256x512x512.Idx → EReal)
      = shapeCast S256x512x512 (m ((c : Thread nD τ).loc main_arg0)) shapeCasts_S8x32x512x512_S256x512x512 := by
  show StableHlo.after hostOps0 (fun b => m (c, b)) (Proc.devRef .tc main_v0) = _
  after_results
  rfl

/-- The folded matrix the third window reads. -/
theorem V_folded (c : Dev nD) :
    (V m c main_v5 : S512x512.Idx → EReal)
      = Host.divf (F := Ideal)
          (Host.dotGeneral (φ₁ := .f32) (φ₂ := .f32) dot_S512x512_S512x512_S512x512_1_0_0_1_n_n none
            (transpose (α := EReal) S512x512 [1, 0] (m ((c : Thread nD τ).loc main_arg1)) transposes_S512x512_S512x512_1_0)
            (m ((c : Thread nD τ).loc main_arg2)))
          (broadcastInDim S512x512 ![] bcast_S_S512x512
            (Host.powf (F := Ideal) (constant (F := Ideal) S_ .f32 0x44000000#32) (constant (F := Ideal) S_ .f32 0x3F000000#32))) := by
  show StableHlo.after hostOps0 (fun b => m (c, b)) (Proc.devRef .tc main_v5) = _
  after_results

end Cert.KernelHost

end
-- ==== Proof.KernelValue.lean ====
/-
  What the kernel program leaves in its result: the attention output of sequence position 0, instance by instance,
  with the scores arranged through the folded matrix.

  At each of the 32 grid points the body leaves, in the output's staging buffer, the 8 rows that the body's loop
  computed from the point's three input blocks.  Read through the point's block of the output array, those rows are
  the rows of one function of the three whole arrays the region finds in its windows; the 32 blocks tile the output
  array, so after the region the array holds that function.  The region finds the regrouped input, the value weights
  and the folded matrix; the last host operation regroups the 256 rows as 8 x 32.
-/
import proofs.«172170_j55370718380196_2_alg».proof.Proof.KernelIdealFramePatched
import proofs.«172170_j55370718380196_2_alg».proof.Proof.KernelOutRows
import proofs.«172170_j55370718380196_2_alg».proof.Proof.KernelPointRows
import proofs.«172170_j55370718380196_2_alg».proof.Proof.KernelWindows
import proofs.«172170_j55370718380196_2_alg».proof.Proof.KernelHost
import proofs.«172170_j55370718380196_2_alg».proof.Proof.KernelBody
import Idealize.ShloMosaic.Lib.Pipeline.Value
import Idealize.ShloMosaic.Lib.StableHlo.Run

noncomputable section

namespace Cert.KernelValue

open Idealize.ShloMosaic Idealize.ShloMosaic.TcCoe Idealize.ShloMosaic.ValueIdx Idealize.SL.Sem Idealize.ShloMosaic.StableHlo
open Cert.KernelIdeal Cert.KernelIdeal.Gen

/-- What the body's run leaves in the output's staging buffer: its one stored piece covers the block, so the buffer
    reads back that piece's value, the loop's 8 rows. -/
theorem out_eq {F : FTy → Type} [FloatOps F] (c : Dev nD) (i : grid0.Coords) (arg1 : Memref sig .tc .vmem S8x512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512x512 .bf16) (harg5 : arg5.IsWhole) (arg6 : Memref sig .tc .vmem S8x512 .f32) (harg6 : arg6.IsWhole)
    (x0 : Vec F S8x512x512 .f32) (x1 x2 : Vec F S512x512 .f32) :
    GenP.out0_A_3 (F := F) c i arg1 harg1 arg2 harg2 arg3 harg3 arg4 harg4 arg5 harg5 arg6 harg6 x0 x1 x2
      = Cert.KernelIdeal.LoopRows.outRows arg1 harg1 arg2 harg2 arg3 harg3 arg5 x0 x1 x2 := by
  have hz : (![0, 0] : Fin S8x512.rank → ℕ) = fun _ => 0 := by
    funext a
    match a with
    | ⟨0, _⟩ => rfl
    | ⟨1, _⟩ => rfl
  unfold GenP.out0_A_3
  rw [View.read_writes_eq_canon _ _ _ (GenP.cover0_A_3 c i arg1 harg1 arg2 harg2 arg3 harg3 arg4 harg4 arg5 harg5 arg6 harg6 x0 x1 x2)]
  unfold GenP.kernelRun0_A
  exact View.canon_unit_zero hz _ _

variable (m : (ℓ : Loc nD τ sig) → Buf (Elt Ideal) ℓ) (ρ : Dev nD → PrngReg)

/-- What point `t` writes back: the 8 rows computed from the point's three input blocks. -/
theorem flushed_eq (c : Dev nD) (t : Fin cfg0.N) :
    (GenP.dats m 0 c).flushed 3 t
      = Cert.KernelBody.bodyRows (iblk m c 0 t : S8x512x512.Idx → EReal) (iblk m c 1 t : S512x512.Idx → EReal) (iblk m c 2 t : S512x512.Idx → EReal) := by
  show (GenP.dats m 0 c).after 3 t = _
  rw [GenP.after0_3]
  unfold GenP.outsAt0
  rw [out_eq]
  exact Cert.KernelOutRows.outRows_eq_bodyRows _ _ _ _ _ _ _ _ _ _

/-- The output array after the region: the rows of the three arrays the region found in its windows. -/
theorem final (c : Dev nD) :
    (GenP.dats m 0 c).arrAt 3 cfg0.N
      = Cert.KernelRows.kernelRows (V m c main_v0 : S256x512x512.Idx → EReal) (V m c main_v5 : S512x512.Idx → EReal) (V m c main_arg3 : S512x512.Idx → EReal) :=
  (GenP.dats m 0 c).arrAt_eq_of_cover 3 _ (fun t _ => (flushed_eq m c t).trans (Cert.KernelPointRows.point_rows m c t)) Cert.KernelBlocks.out_cover

/-- The program's result after the last host operation. -/
theorem result (c : Dev nD) :
    (Pipeline.afterTail₀ cfgs (GenP.dats m) 0 (V0 m) [hostOps1] c main_v7 : S8x32x512.Idx → EReal)
      = Cert.AttentionSpec.kernelResult (m ((c : Thread nD τ).loc main_arg0)) (m ((c : Thread nD τ).loc main_arg1))
          (m ((c : Thread nD τ).loc main_arg2)) (m ((c : Thread nD τ).loc main_arg3)) := by
  have h6 := (Pipeline.withArrays_arr spec0 launch0.win.arr_inj c (V0 m c) (fun w => (GenP.dats m 0 c).arrAt w cfg0.N) 3).trans (final m c)
  rw [Cert.KernelHost.V_input, Cert.KernelHost.V_folded, V_main_arg3] at h6
  unfold Pipeline.afterTail₀
  show StableHlo.after hostOps1 _ (Proc.devRef .tc main_v7) = _
  after_results
  show shapeCast S8x32x512
      (Pipeline.withArrays spec0 c (V0 m c) (fun w => (GenP.dats m 0 c).arrAt w cfg0.N) (Proc.devRef .tc main_v6))
      shapeCasts_S256x512_S8x32x512 = _
  rw [h6]
  exact Cert.KernelWindows.rows_eq_kernelResult _ _ _ _

/-- THE KERNEL PROGRAM'S RUN: every weakly fair execution terminates with the result at `kernelResult` of the four
    arguments, and the arguments as they were. -/
theorem run : θ_run defs (onTc (τ := τ) (main (F := Ideal))) ⟨m, fun _ => 0, ρ⟩ (fun r => ∀ c : Dev nD,
      r.2.mem ((c.tc : Thread nD τ).loc main_v7)
        = Cert.AttentionSpec.kernelResult (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans (result m c),
      ((h c).2 main_arg0 (Pipeline.mem_restRefs_of main_arg0 (by decide) (by decide))).trans (W_main_arg0 m (GenP.dats m) c),
      ((h c).2 main_arg1 (Pipeline.mem_restRefs_of main_arg1 (by decide) (by decide))).trans (W_main_arg1 m (GenP.dats m) c),
      ((h c).2 main_arg2 (Pipeline.mem_restRefs_of main_arg2 (by decide) (by decide))).trans (W_main_arg2 m (GenP.dats m) c),
      ((h c).1 1).trans (((GenP.dats m 0 c).arrAt_in 1 rfl _).trans ((GenP.A_eq m c 1).trans (V_main_arg3 m c)))⟩)
    (GenP.run_main m ρ)

end Cert.KernelValue

end
-- ==== Proof.ReferenceValueStages.lean ====
/-
  The reference program read at an index, one stage at a time, on the extended reals.

  The program works on an array of 8 x 32 instances, each a 512 x 512 matrix X whose rows are sequence positions.
  Written with coordinates (b, i, l, ·) for "instance (b, i), position l", the stages are

      q[l, o] = (sum over d of X[l, d] * Wq[o, d]) / T          (T the temperature 512 ^ (1/2))
      k[m, o] =  sum over e of X[m, e] * Wk[o, e]
      v[m, o] =  sum over d of X[m, d] * Wv[o, d]
      s[l, m] =  sum over o of q[l, o] * k[m, o]
      p[l, m] =  exp (s[l, m] - M[l]) / (0 + sum over n of exp (s[l, n] - M[l])),   M[l] = max (−∞, running max of s[l, ·])
      out[l, o] = sum over m of p[l, m] * v[m, o]

  and the result keeps position l = 0 only.  Every statement below is an identity between the same operations of the
  extended reals; nothing is assumed finite.  The identities are stated on the raw sums so that they can be compared
  with any way of naming those sums.
-/
import proofs.«172170_j55370718380196_2_alg».proof.Proof.RefImports

noncomputable section

open scoped BigOperators

namespace Cert.ReferenceValue

open Cert.ReferenceIdeal Cert.ReferenceIdeal.Gen Cert.ReferenceIdeal.Read Idealize.ShloMosaic Idealize.ShloMosaic.ValueIdx

/-- The temperature 512 ^ (1/2), both numbers read from their f32 words. -/
abbrev temp : EReal := Ideal.pow (Ideal.ofBits .f32 0x44000000#32) (Ideal.ofBits .f32 0x3F000000#32)

/-- The word of −∞. -/
abbrev negInf : EReal := Ideal.ofBits .f32 0xFF800000#32

variable (x : FVec Ideal S8x32x512x512 .f32) (wq wk wv : FVec Ideal S512x512 .f32)

/-! ## A fold by maximum over the last axis of a rank-4 array, over any extents -/

section LastAxis

variable {N R L C : ℕ}

/-- The reduced index (n, r, l) of a rank-4 array with the last coordinate q put back is (n, r, l, q). -/
theorem lift_last (h : (⟨4, ![N, R, L, C]⟩ : Shape).Reduces [3] ⟨3, ![N, R, L]⟩) (n : Fin N) (r : Fin R) (l : Fin L) (q : Fin C) :
    h.lift (ix3 n r l) q = ix4 n r l q := by
  funext c; apply Fin.ext
  match c with
  | ⟨0, _⟩ => rfl
  | ⟨1, _⟩ => rfl
  | ⟨2, _⟩ => rfl
  | ⟨3, _⟩ => rfl

/-- An array program's fold by maximum over the last axis from −∞, at (n, r, l): the running maximum, from −∞, of the
    entries (n, r, l, ·). -/
theorem last_max_apply (B : FVec Ideal ⟨4, ![N, R, L, C]⟩ .f32) (h' : (⟨4, ![N, R, L, C]⟩ : Shape).ReducesTo [3] ⟨3, ![N, R, L]⟩)
    (h : (⟨4, ![N, R, L, C]⟩ : Shape).Reduces [3] ⟨3, ![N, R, L]⟩) (hu : 0 < (⟨0, ![]⟩ : Shape).numel) (n : Fin N) (r : Fin R) (l : Fin L) :
    Host.reduce FloatOps.maximumf B (constant (F := Ideal) (⟨0, ![]⟩ : Shape) .f32 0xFF800000#32) h' hu (ix3 n r l)
      = (Finset.univ : Finset (Fin C)).fold max negInf (fun q => B (ix4 n r l q)) := by
  rw [Host.reduce_eq_fold_single FloatOps.maximumf B _ h' h hu]
  have hf : (B ∘ h.lift (ix3 n r l)) = fun q : Fin C => B (ix4 n r l q) := funext fun q => congrArg B (lift_last h n r l q)
  exact congrArg (fun f => Finset.fold max negInf f (Finset.univ : Finset (Fin C))) hf

end LastAxis

/-! ## Where each stage reads its operands -/

section Indices

variable (b : Fin 8) (i : Fin 32) (l m o k : Fin 512)

theorem lidx_v1 : lidx_main_v1 (ix4 b i l o) k = ix4 b i l k := by
  funext a; match a with | ⟨0, _⟩ => rfl | ⟨1, _⟩ => rfl | ⟨2, _⟩ => rfl | ⟨3, _⟩ => rfl
theorem ridx_v1 : ridx_main_v1 (ix4 b i l o) k = ix2 o k := by
  funext a; match a with | ⟨0, _⟩ => rfl | ⟨1, _⟩ => rfl
theorem lidx_v2 : lidx_main_v2 (ix4 b i l o) k = ix4 b i l k := by
  funext a; match a with | ⟨0, _⟩ => rfl | ⟨1, _⟩ => rfl | ⟨2, _⟩ => rfl | ⟨3, _⟩ => rfl
theorem ridx_v2 : ridx_main_v2 (ix4 b i l o) k = ix2 o k := by
  funext a; match a with | ⟨0, _⟩ => rfl | ⟨1, _⟩ => rfl
theorem lidx_v3 : lidx_main_v3 (ix4 b i l o) k = ix4 b i l k := by
  funext a; match a with | ⟨0, _⟩ => rfl | ⟨1, _⟩ => rfl | ⟨2, _⟩ => rfl | ⟨3, _⟩ => rfl
theorem ridx_v3 : ridx_main_v3 (ix4 b i l o) k = ix2 o k := by
  funext a; match a with | ⟨0, _⟩ => rfl | ⟨1, _⟩ => rfl
/-- The score of positions (l, m) reads the query at (l, k) … -/
theorem lidx_v6 : lidx_main_v6 (ix4 b i l m) k = ix4 b i l k := by
  funext a; match a with | ⟨0, _⟩ => rfl | ⟨1, _⟩ => rfl | ⟨2, _⟩ => rfl | ⟨3, _⟩ => rfl
/-- … and the key at (m, k). -/
theorem ridx_v6 : ridx_main_v6 (ix4 b i l m) k = ix4 b i m k := by
  funext a; match a with | ⟨0, _⟩ => rfl | ⟨1, _⟩ => rfl | ⟨2, _⟩ => rfl | ⟨3, _⟩ => rfl
/-- A column of one number per position, repeated along the last axis, reads the number of its position. -/
theorem idx_v11 : idx_main_v10 (idx_main_v11 (ix4 b i l m)) = ix3 b i l := by
  funext a; match a with | ⟨0, _⟩ => rfl | ⟨1, _⟩ => rfl | ⟨2, _⟩ => rfl
theorem idx_v14 : idx_main_v14 (ix3 b i l) k = ix4 b i l k := by
  funext a; match a with | ⟨0, _⟩ => rfl | ⟨1, _⟩ => rfl | ⟨2, _⟩ => rfl | ⟨3, _⟩ => rfl
theorem idx_v16 : idx_main_v15 (idx_main_v16 (ix4 b i l m)) = ix3 b i l := by
  funext a; match a with | ⟨0, _⟩ => rfl | ⟨1, _⟩ => rfl | ⟨2, _⟩ => rfl
/-- The output at (l, o) reads the weights at (l, k) … -/
theorem lidx_v18 : lidx_main_v18 (ix4 b i l o) k = ix4 b i l k := by
  funext a; match a with | ⟨0, _⟩ => rfl | ⟨1, _⟩ => rfl | ⟨2, _⟩ => rfl | ⟨3, _⟩ => rfl
/-- … and the value rows at (k, o). -/
theorem ridx_v18 : ridx_main_v18 (ix4 b i l o) k = ix4 b i k o := by
  funext a; match a with | ⟨0, _⟩ => rfl | ⟨1, _⟩ => rfl | ⟨2, _⟩ => rfl | ⟨3, _⟩ => rfl
/-- The result at (b, i, o) is the output of instance (b, i) at position 0, feature o: the row-major offset
    ((b * 32 + i) * 512 + o) of the result, taken apart over the extents (8, 32, 1, 512), gives back (b, i, 0, o). -/
theorem idx_v20 : idx_main_v19 (idx_main_v20 (ix3 b i o)) = ix4 b i (0 : Fin 512) o := by
  funext a; apply Fin.ext
  have hb := b.isLt; have hi := i.isLt; have ho := o.isLt
  match a with
  | ⟨0, _⟩ => show ((b.val * 32 + i.val) * 512 + o.val) / 16384 = b.val; omega
  | ⟨1, _⟩ => show ((b.val * 32 + i.val) * 512 + o.val) / 512 % 32 = i.val; omega
  | ⟨2, _⟩ => rfl
  | ⟨3, _⟩ => show ((b.val * 32 + i.val) * 512 + o.val) % 512 = o.val; omega

end Indices

/-! ## The stages -/

section Stages

variable (b : Fin 8) (i : Fin 32) (l m o : Fin 512)

/-- The broadcast temperature reads 512 ^ (1/2) at every index. -/
theorem temperature_apply (j : S8x32x512x512.Idx) : val_main_v4 (F := Ideal) j = temp := by
  rw [val_main_v4_apply, val_main_v0_apply, val_main_cst_apply, val_main_cst_0_apply]
  rfl

/-- The query projection before the division. -/
theorem projQ_apply : val_main_v1 (F := Ideal) x wq (ix4 b i l o) = ∑ d : Fin 512, x (ix4 b i l d) * wq (ix2 o d) := by
  rw [val_main_v1_apply]
  exact Finset.sum_congr rfl fun d _ => by rw [lidx_v1, ridx_v1]

/-- The key projection. -/
theorem projK_apply : val_main_v2 (F := Ideal) x wk (ix4 b i m o) = ∑ e : Fin 512, x (ix4 b i m e) * wk (ix2 o e) := by
  rw [val_main_v2_apply]
  exact Finset.sum_congr rfl fun d _ => by rw [lidx_v2, ridx_v2]

/-- The value projection. -/
theorem projV_apply : val_main_v3 (F := Ideal) x wv (ix4 b i m o) = ∑ d : Fin 512, x (ix4 b i m d) * wv (ix2 o d) := by
  rw [val_main_v3_apply]
  exact Finset.sum_congr rfl fun d _ => by rw [lidx_v3, ridx_v3]

/-- The query: the projection over the temperature. -/
theorem query_apply :
    val_main_v5 (F := Ideal) x wq (ix4 b i l o) = Ideal.div (∑ d : Fin 512, x (ix4 b i l d) * wq (ix2 o d)) temp := by
  rw [val_main_v5_apply, projQ_apply, temperature_apply]
  rfl

/-- The score of position l against position m. -/
theorem score_apply :
    val_main_v6 (F := Ideal) x wq wk (ix4 b i l m)
      = ∑ o : Fin 512, Ideal.div (∑ d : Fin 512, x (ix4 b i l d) * wq (ix2 o d)) temp * (∑ e : Fin 512, x (ix4 b i m e) * wk (ix2 o e)) := by
  rw [val_main_v6_apply]
  exact Finset.sum_congr rfl fun o _ => by rw [lidx_v6, ridx_v6, query_apply, projK_apply]

/-- The fold by maximum over the last axis from −∞, at (b, i, l): the running maximum of the scores of position l. -/
theorem rowMax_apply :
    val_main_v7 (F := Ideal) x wq wk (ix3 b i l)
      = (Finset.univ : Finset (Fin 512)).fold max negInf (fun q => val_main_v6 (F := Ideal) x wq wk (ix4 b i l q)) :=
  last_max_apply (val_main_v6 (F := Ideal) x wq wk) reducesTo_S8x32x512x512_S8x32x512_d3 (by decide) h_S_ b i l

/-- The greatest score of position l, guarded once more against −∞ and repeated along the last axis. -/
theorem guardedMax_apply :
    val_main_v11 (F := Ideal) x wq wk (ix4 b i l m)
      = max negInf ((Finset.univ : Finset (Fin 512)).fold max negInf (fun q => val_main_v6 (F := Ideal) x wq wk (ix4 b i l q))) := by
  rw [val_main_v11_apply, val_main_v10_apply, idx_v11, val_main_v9_apply, val_main_v8_apply, val_main_cst_2_apply, rowMax_apply]
  rfl

/-- The exponential of a score less the guarded greatest score of its position. -/
theorem expShift_apply :
    val_main_v13 (F := Ideal) x wq wk (ix4 b i l m)
      = Ideal.exp (val_main_v6 (F := Ideal) x wq wk (ix4 b i l m)
          - max negInf ((Finset.univ : Finset (Fin 512)).fold max negInf (fun q => val_main_v6 (F := Ideal) x wq wk (ix4 b i l q)))) := by
  rw [val_main_v13_apply, val_main_v12_apply, guardedMax_apply]
  rfl

/-- The sum of those exponentials along the last axis, from the word of zero, repeated along the last axis. -/
theorem expSum_apply :
    val_main_v16 (F := Ideal) x wq wk (ix4 b i l m)
      = Ideal.ofBits .f32 0x00000000#32 + ∑ n : Fin 512, Ideal.exp (val_main_v6 (F := Ideal) x wq wk (ix4 b i l n)
          - max negInf ((Finset.univ : Finset (Fin 512)).fold max negInf (fun q => val_main_v6 (F := Ideal) x wq wk (ix4 b i l q)))) := by
  rw [val_main_v16_apply, val_main_v15_apply, idx_v16, val_main_v14_apply, val_main_cst_3_apply]
  refine congrArg (_ + ·) (Finset.sum_congr rfl fun n _ => ?_)
  rw [idx_v14, expShift_apply]

/-- The attention weights of position l: the guarded softmax of its scores, on the raw operations. -/
theorem weights_apply :
    val_main_v17 (F := Ideal) x wq wk (ix4 b i l m)
      = Ideal.div
          (Ideal.exp (val_main_v6 (F := Ideal) x wq wk (ix4 b i l m)
            - max negInf ((Finset.univ : Finset (Fin 512)).fold max negInf (fun q => val_main_v6 (F := Ideal) x wq wk (ix4 b i l q)))))
          (Ideal.ofBits .f32 0x00000000#32 + ∑ n : Fin 512, Ideal.exp (val_main_v6 (F := Ideal) x wq wk (ix4 b i l n)
            - max negInf ((Finset.univ : Finset (Fin 512)).fold max negInf (fun q => val_main_v6 (F := Ideal) x wq wk (ix4 b i l q))))) := by
  rw [val_main_v17_apply, expShift_apply, expSum_apply]
  rfl

/-- The output of position l at feature o: the weights of position l against the value rows. -/
theorem output_apply :
    val_main_v18 (F := Ideal) x wq wk wv (ix4 b i l o)
      = ∑ m : Fin 512, val_main_v17 (F := Ideal) x wq wk (ix4 b i l m) * (∑ d : Fin 512, x (ix4 b i m d) * wv (ix2 o d)) := by
  rw [val_main_v18_apply]
  exact Finset.sum_congr rfl fun m _ => by rw [lidx_v18, ridx_v18, projV_apply]

/-- The result at (b, i, o): the output of position 0 of instance (b, i). -/
theorem result_apply :
    val_main_v20 (F := Ideal) x wq wk wv (ix3 b i o)
      = ∑ m : Fin 512, val_main_v17 (F := Ideal) x wq wk (ix4 b i (0 : Fin 512) m) * (∑ d : Fin 512, x (ix4 b i m d) * wv (ix2 o d)) := by
  rw [val_main_v20_apply, val_main_v19_apply, idx_v20, output_apply]

end Stages

end Cert.ReferenceValue

end
-- ==== Proof.ReferenceValue.lean ====
/-
  What the reference program computes, as the function of the four argument arrays that the shared specification
  names.

  Read at (b, i, o), the program's result is the output of sequence position 0 of instance (b, i) at feature o: the sum
  over positions m of the attention weight of position 0 on position m times the value row m at o.  The weights are the
  guarded softmax of the scores of position 0, and guarding the greatest score once more against −∞ and starting the
  sum of exponentials from zero change nothing on the extended reals.  The score of position 0 against position m is
  the inner product, over the projected features, of the query of position 0 (its projection over the temperature)
  with the key projection of position m.  These are the specification's score, softmax row and value row.
-/
import proofs.«172170_j55370718380196_2_alg».proof.Proof.ReferenceValueStages
import proofs.«172170_j55370718380196_2_alg».proof.Proof.AttentionSpec

noncomputable section

open scoped BigOperators

namespace Cert.ReferenceValue

open Cert.ReferenceIdeal Cert.ReferenceIdeal.Gen Cert.ReferenceIdeal.Read Idealize.ShloMosaic Idealize.ShloMosaic.ValueIdx
  Cert.AttentionSpec Cert.Lib.SoftmaxRow

variable (x : FVec Ideal S8x32x512x512 .f32) (wq wk wv : FVec Ideal S512x512 .f32) (b : Fin 8) (i : Fin 32)

/-- The score stage at position 0 of instance (b, i) is the specification's score of that instance's matrix. -/
theorem score_eq (m : Fin 512) :
    val_main_v6 (F := Ideal) x wq wk (ix4 b i (0 : Fin 512) m) = scoreRef (slab x b i) (mat wq) (mat wk) m :=
  score_apply x wq wk b i 0 m

/-- The weights stage at position 0 is the softmax row of those scores. -/
theorem weights_eq (m : Fin 512) :
    val_main_v17 (F := Ideal) x wq wk (ix4 b i (0 : Fin 512) m) = softmaxRow (scoreRef (slab x b i) (mat wq) (mat wk)) m := by
  have hs : (fun q : Fin 512 => val_main_v6 (F := Ideal) x wq wk (ix4 b i (0 : Fin 512) q)) = scoreRef (slab x b i) (mat wq) (mat wk) :=
    funext fun q => score_eq x wq wk b i q
  rw [weights_apply, hs]
  simp only [score_eq]
  exact softmaxRow_guarded _ _

/-- THE REFERENCE'S RESULT: the program's last stage is the specification's result of the four argument arrays. -/
theorem reference_value (x : FVec Ideal S8x32x512x512 .f32) (wq wk wv : FVec Ideal S512x512 .f32) :
    val_main_v20 (F := Ideal) x wq wk wv = referenceResult x wq wk wv := by
  funext j
  obtain ⟨b, i, o, rfl⟩ : ∃ (b : Fin 8) (i : Fin 32) (o : Fin 512), j = ix3 b i o := ⟨j 0, j 1, j 2, eq_ix3 j⟩
  rw [result_apply]
  show _ = ∑ m : Fin 512, softmaxRow (scoreRef (slab x b i) (mat wq) (mat wk)) m * valueRow (slab x b i) (mat wv) m o
  exact Finset.sum_congr rfl fun m _ => congrArg (· * _) (weights_eq x wq wk b i m)

end Cert.ReferenceValue

end
-- ==== Proof.LibFoldedScales.lean ====
/-
  Diagonal scales folded into the factors of a low-rank chain, on the extended reals.

  Over an abstract finite index type κ (the contracted input axis) and a rank R:

    * a finite sum of reals, read as extended reals, is the sum of the terms read as extended reals;
    * for real-valued data, a row x, an input scale g, a factor sv, a rank scale l, a second factor's row su and
      an output scale h, the chain with the scales folded into the factors
          Σ_r (Σ_k x_k · ((g_k · sv_{k,r}) · l_r)) · (su_r · h)
      is the chain that applies the scales one at a time
          (Σ_r ((Σ_k (x_k · g_k) · sv_{k,r}) · l_r) · su_r) · h ;
      this is distributivity, which the extended reals have only away from the infinities, hence the hypotheses;
    * a sum over R + R rank indices of terms built from two factors laid side by side is the sum of the two
      halves' sums (no hypothesis: only the order of a finite sum changes).
-/
import Mathlib.Data.EReal.Basic
import Mathlib.Algebra.BigOperators.Fin
import Mathlib.Tactic.Ring

open scoped BigOperators

namespace Cert.Lib.FoldedScales

/-- An extended real that is a real number. -/
def IsReal (e : EReal) : Prop := ∃ r : ℝ, e = (r : EReal)

theorem isReal_coe (r : ℝ) : IsReal (r : EReal) := ⟨r, rfl⟩

/-- Neither infinity: a real number. -/
theorem isReal_of_ne {e : EReal} (ht : e ≠ ⊤) (hb : e ≠ ⊥) : IsReal e :=
  ⟨e.toReal, (EReal.coe_toReal ht hb).symm⟩

/-- A family of real-valued extended reals is the coercion of a family of reals. -/
theorem exists_real_family {ι : Type} (f : ι → EReal) (hf : ∀ i, IsReal (f i)) : ∃ f' : ι → ℝ, f = fun i => (f' i : EReal) :=
  ⟨fun i => (hf i).choose, funext fun i => (hf i).choose_spec⟩

/-- A finite sum of reals read as extended reals is the sum of the terms read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The chain over the reals: folding the three diagonal scales into the two factors does not change it. -/
theorem chain_real {κ : Type} [Fintype κ] {R : ℕ} (x g : κ → ℝ) (sv : κ → Fin R → ℝ) (l su : Fin R → ℝ) (h : ℝ) :
    ∑ r : Fin R, (∑ k : κ, x k * ((g k * sv k r) * l r)) * (su r * h)
      = (∑ r : Fin R, ((∑ k : κ, (x k * g k) * sv k r) * l r) * su r) * h := by
  rw [Finset.sum_mul]
  refine Finset.sum_congr rfl fun r _ => ?_
  have e : ∑ k : κ, x k * ((g k * sv k r) * l r) = (∑ k : κ, (x k * g k) * sv k r) * l r := by
    rw [Finset.sum_mul]
    exact Finset.sum_congr rfl fun k _ => by ring
  rw [e]
  ring

/-- The same on the extended reals, for real-valued data. -/
theorem chain {κ : Type} [Fintype κ] {R : ℕ} (x g : κ → EReal) (sv : κ → Fin R → EReal) (l su : Fin R → EReal) (h : EReal)
    (hx : ∀ k, IsReal (x k)) (hg : ∀ k, IsReal (g k)) (hsv : ∀ k r, IsReal (sv k r)) (hl : ∀ r, IsReal (l r))
    (hsu : ∀ r, IsReal (su r)) (hh : IsReal h) :
    ∑ r : Fin R, (∑ k : κ, x k * ((g k * sv k r) * l r)) * (su r * h)
      = (∑ r : Fin R, ((∑ k : κ, (x k * g k) * sv k r) * l r) * su r) * h := by
  obtain ⟨x', rfl⟩ := exists_real_family x hx
  obtain ⟨g', rfl⟩ := exists_real_family g hg
  obtain ⟨sv', hsv'⟩ : ∃ sv' : κ → Fin R → ℝ, sv = fun k r => (sv' k r : EReal) :=
    ⟨fun k r => (hsv k r).choose, funext fun k => funext fun r => (hsv k r).choose_spec⟩
  subst hsv'
  obtain ⟨l', rfl⟩ := exists_real_family l hl
  obtain ⟨su', rfl⟩ := exists_real_family su hsu
  obtain ⟨h', rfl⟩ := hh
  simp only [← EReal.coe_mul, ← coe_sum]
  exact congrArg _ (chain_real x' g' sv' l' su' h')

/-- A sum over R + R indices is the sum over the first R plus the sum over the last R. -/
theorem sum_two_halves {R : ℕ} (f : Fin (R + R) → EReal) :
    ∑ j : Fin (R + R), f j = ∑ r : Fin R, f (Fin.castAdd R r) + ∑ r : Fin R, f (Fin.natAdd R r) :=
  Fin.sum_univ_add f

end Cert.Lib.FoldedScales
-- ==== Proof.ScoreLaw.lean ====
/-
  The two arrangements of the attention score agree on real-valued data.

  With T the temperature, a real number different from zero, x the rows of one instance and q, k the two
  projection matrices, the reference's score of position 0 against position m is

      sum over o of ((sum over d of x[0, d] * q[o, d]) / T) * (sum over e of x[m, e] * k[o, e]),

  and the kernel's is

      sum over e of (sum over d of x[0, d] * ((sum over o of q[o, d] * k[o, e]) / T)) * x[m, e].

  Dividing by a real T different from zero is multiplying by the real 1 / T, so on real-valued data both are a
  finite combination of sums and products of reals, and over the reals both expand to

      (1 / T) * sum over d, e, o of x[0, d] * q[o, d] * k[o, e] * x[m, e].

  The extended reals distribute only away from the infinities, which is why every entry is assumed real: the
  statement is carried to the reals, proved there by exchanging the order of summation, and carried back.
-/
import proofs.«172170_j55370718380196_2_alg».proof.Proof.AttentionSpec
import proofs.«172170_j55370718380196_2_alg».proof.Proof.LibFoldedScales

noncomputable section

open scoped BigOperators

namespace Cert.ScoreLaw

open Idealize.ShloMosaic Cert.AttentionSpec Cert.Lib.FoldedScales

/-- The word 0x44000000 is 2 ^ 9 = 512. -/
theorem ofBits_512 : Ideal.ofBits .f32 0x44000000#32 = ((512 : ℝ) : EReal) := by
  simp [Ideal.ofBits, Ideal.ieee, -EReal.coe_mul]; norm_num

/-- The word 0x3F000000 is 2 ^ (-1) = 1 / 2. -/
theorem ofBits_half : Ideal.ofBits .f32 0x3F000000#32 = ((1 / 2 : ℝ) : EReal) := by
  simp [Ideal.ofBits, Ideal.ieee, -EReal.coe_mul]; norm_num

/-- The temperature is a real number different from zero: a positive real raised to a real power is positive. -/
theorem temperature_real : ∃ r : ℝ, r ≠ 0 ∧ temperature = (r : EReal) := by
  refine ⟨Real.rpow 512 (1 / 2), (Real.rpow_pos_of_pos (by norm_num) _).ne', ?_⟩
  rw [temperature, ofBits_512, ofBits_half]
  rfl

/-- The identity over the reals, over abstract finite index types: with c in the place of 1 / T, both arrangements
    are the sum over o, e, d of a[d] * q[o, d] * c * (b[e] * k[o, e]). -/
theorem score_real {ι κ ο : Type} [Fintype ι] [Fintype κ] [Fintype ο] (a : ι → ℝ) (b : κ → ℝ)
    (q : ο → ι → ℝ) (k : ο → κ → ℝ) (c : ℝ) :
    ∑ e, (∑ d, a d * ((∑ o, q o d * k o e) * c)) * b e
      = ∑ o, ((∑ d, a d * q o d) * c) * (∑ e, b e * k o e) := by
  -- for a fixed e, the kernel's summand is a sum over o of the reference's summand at (o, e)
  have hL : ∀ e, (∑ d, a d * ((∑ o, q o d * k o e) * c)) * b e
      = ∑ o, (∑ d, a d * q o d) * c * (b e * k o e) := by
    intro e
    have h1 : ∀ d, a d * ((∑ o, q o d * k o e) * c) = ∑ o, a d * q o d * c * k o e := by
      intro d
      rw [Finset.sum_mul, Finset.mul_sum]
      exact Finset.sum_congr rfl fun o _ => by ring
    rw [Finset.sum_congr rfl fun d _ => h1 d, Finset.sum_comm, Finset.sum_mul]
    refine Finset.sum_congr rfl fun o _ => ?_
    rw [Finset.sum_mul, Finset.sum_mul, Finset.sum_mul]
    exact Finset.sum_congr rfl fun d _ => by ring
  -- exchange the sums over e and o, then collect the sum over e
  rw [Finset.sum_congr rfl fun e _ => hL e, Finset.sum_comm]
  refine Finset.sum_congr rfl fun o _ => ?_
  rw [Finset.mul_sum]

/-- A matrix of extended reals whose entries are all real is the entrywise image of a matrix of reals. -/
theorem exists_real_matrix {ι κ : Type} (f : ι → κ → EReal) (hf : ∀ i j, ∃ r : ℝ, f i j = (r : EReal)) :
    ∃ f' : ι → κ → ℝ, f = fun i j => (f' i j : EReal) :=
  ⟨fun i j => (hf i j).choose, funext fun i => funext fun j => (hf i j).choose_spec⟩

/-- On real-valued data the kernel's score is the reference's score. -/
theorem scoreKer_eq_scoreRef (X Wq Wk : Fin 512 → Fin 512 → EReal)
    (hX : ∀ m d, ∃ r : ℝ, X m d = (r : EReal)) (hq : ∀ o d, ∃ r : ℝ, Wq o d = (r : EReal))
    (hk : ∀ o d, ∃ r : ℝ, Wk o d = (r : EReal)) (m : Fin 512) :
    scoreKer X Wq Wk m = scoreRef X Wq Wk m := by
  obtain ⟨x, rfl⟩ := exists_real_matrix X hX
  obtain ⟨wq, rfl⟩ := exists_real_matrix Wq hq
  obtain ⟨wk, rfl⟩ := exists_real_matrix Wk hk
  obtain ⟨T, hT0, hT⟩ := temperature_real
  unfold scoreKer scoreRef foldedWeights
  rw [hT]
  -- every division becomes a product with the real 1 / T, and every sum and product is one of reals
  simp only [Ideal.div_coe hT0, ← EReal.coe_mul, ← coe_sum]
  exact congrArg _ (score_real (x 0) (x m) wq wk (1 / T))

end Cert.ScoreLaw

end
-- ==== Proof.FiniteInputs.lean ====
/-
  From the precondition to real-valued arguments.

  The precondition says of each of the four argument arrays that every entry x satisfies |x| < +infinity, and takes
  the conjunction of the four statements.  On the extended reals |x| is the larger of x and -x, and it is below
  +infinity exactly when x is neither +infinity nor -infinity: that is, when x is a real number.  So under the
  precondition every entry of every argument is a real number, which is what the algebra of the scores needs,
  because sums and products on the extended reals distribute only away from the infinities.
-/
import proofs.«172170_j55370718380196_2_alg».proof.Defs
import Idealize.ShloMosaic.Lib.ReduceAll
import Idealize.ShloMosaic.Lib.IdealHost

noncomputable section

namespace Cert.FiniteInputs

open Idealize.ShloMosaic Idealize.ShloMosaic.ValueIdx Idealize.SL.Sem

/-- The word 0x7F800000 (all exponent bits set, no fraction bits, sign clear) is +infinity. -/
theorem ofBits_inf : Ideal.ofBits .f32 0x7F800000#32 = ⊤ := by
  simp [Ideal.ofBits, Ideal.ieee]

/-- An extended real whose absolute value compares below +infinity is a real number: at either infinity the larger
    of x and -x is +infinity, which is not below itself. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

/-- The shape of a scalar has exactly one index. -/
instance : Subsingleton (⟨0, ![]⟩ : Shape).Idx := ⟨fun a b => funext fun d => d.elim0⟩

/-- One array: if the conjunction over all entries of "|x| < +infinity" is true, every entry is a real number. -/
theorem real_of_all {s : Shape} {axes : List (Fin s.rank)} (x : FVec Ideal s .f32)
    (hb : (⟨0, ![]⟩ : Shape).BroadcastsInDim s ![]) (hr : s.ReducesTo axes (⟨0, ![]⟩ : Shape))
    (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (j : s.Idx) : ∃ r : ℝ, x j = (r : EReal) := by
  have h := Host.reduce_andi_all _ _ hr hu ix0 e j
  change Ideal.cmp .olt (max (x j) (-(x j)))
    (broadcastInDim s ![] hb (constant (F := Ideal) (⟨0, ![]⟩ : Shape) .f32 0x7F800000#32) j) = 1#1 at h
  rw [broadcastInDim_scalar_apply] at h
  exact real_of_abs_lt_inf (x j) h

/-- Under the precondition every entry of each of the four argument arrays is a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal))
    ∧ (∀ j, ∃ r : ℝ, m ((c.tc : Thread Cert.KernelIdeal.nD Cert.KernelIdeal.τ).loc Cert.KernelIdeal.main_arg3) j = (r : EReal)) := by
  have e := congrFun (h c) ix0
  dsimp only [Cert.Pre_finite_inputs.fn, Cert.Pre_finite_inputs.fn_part1] at e
  -- the conjunction of four, nested to the left
  obtain ⟨e012, e3⟩ := IntOp.andi_eq_one.1 e
  obtain ⟨e01, e2⟩ := IntOp.andi_eq_one.1 e012
  obtain ⟨e0, e1⟩ := IntOp.andi_eq_one.1 e01
  exact ⟨fun j => real_of_all _ _ _ _ e0 j, fun j => real_of_all _ _ _ _ e1 j,
    fun j => real_of_all _ _ _ _ e2 j, fun j => real_of_all _ _ _ _ e3 j⟩

end Cert.FiniteInputs

end
-- ==== Proof.lean ====
/-
  Single-query attention at sequence position 0, with the key projection folded away.

  For each of the 8 x 32 instances, with X the instance's 512 x 512 matrix, both programs return

      out[o] = sum over m of softmax(s)[m] * (sum over d of X[m, d] * Wv[o, d]),

  the softmax taken over the 512 scores s[m] of position 0 against position m, divided by T = 512 ^ (1/2).  The
  reference computes the queries, keys and values of every position, divides the queries by T, forms all scores, and
  keeps row 0 of the result:   s[m] = sum over o of ((sum over d of X[0, d] Wq[o, d]) / T) (sum over e of X[m, e] Wk[o, e]).
  The kernel never forms the keys: it folds the two projections and T into one matrix beforehand, W[d, e] =
  (sum over o of Wq[o, d] Wk[o, e]) / T, and scores position 0 through it:   s[m] = sum over e of (sum over d of X[0, d] W[d, e]) X[m, e].

  Over the reals both scores are (1 / T) times the triple sum of X[0, d] Wq[o, d] Wk[o, e] X[m, e]: one regrouping of a
  finite sum and one common factor moved across it.  On the extended reals those two steps need every entry to be a
  real number, which is what the precondition gives (T is a positive real, so dividing by it is multiplying by 1 / T);
  the softmax and the weighted sum of value rows are then the same operations of equal scores, and nothing more is
  used of them.  The value side of each program is read off its run: the reference's result is `referenceResult` of the
  arguments (ReferenceValue.lean), the kernel program's is `kernelResult` of them (KernelValue.lean), and the two
  functions agree where the scores do (AttentionSpec.lean, ScoreLaw.lean, FiniteInputs.lean).

  The three frames: the reference's is its run with the result dropped; the two kernel programs' are their frame
  certificates, in which the body's run states the output block as the loop's 8 rows (KernelLoopRows.lean and
  KernelIdealLoopRows.lean: the 8 stored rows cover the scratch buffer the last store copies out).  The idealization
  rewrote nothing, so there is nothing to preserve beyond the text itself.
-/
import proofs.«172170_j55370718380196_2_alg».proof.Defs
import proofs.«172170_j55370718380196_2_alg».proof.Proof.Gen.Kernel
import proofs.«172170_j55370718380196_2_alg».proof.Proof.Gen.KernelIdeal
import proofs.«172170_j55370718380196_2_alg».proof.Proof.Gen.ReferenceIdeal
import proofs.«172170_j55370718380196_2_alg».proof.Proof.Gen.Pre_finite_inputs
import proofs.«172170_j55370718380196_2_alg».proof.Proof.RefImports
import proofs.«172170_j55370718380196_2_alg».proof.Proof.KernelFramePatched
import proofs.«172170_j55370718380196_2_alg».proof.Proof.KernelIdealFramePatched
import proofs.«172170_j55370718380196_2_alg».proof.Proof.KernelValue
import proofs.«172170_j55370718380196_2_alg».proof.Proof.ReferenceValue
import proofs.«172170_j55370718380196_2_alg».proof.Proof.ScoreLaw
import proofs.«172170_j55370718380196_2_alg».proof.Proof.FiniteInputs
import Idealize.ShloMosaic.Adequacy
import Idealize.ShloMosaic.Init

noncomputable section

namespace Cert.Proof

open Idealize.ShloMosaic Idealize.ShloMosaic.ValueIdx Idealize.SL.Sem

/-- The kernel program as printed terminates, faults nowhere and leaves its arguments as they were. -/
theorem frame_kernel : Cert.frame_Kernel := fun m ρ _ => Cert.Kernel.GenP.frame m ρ

/-- So does its reading on the extended reals. -/
theorem frame_kernelIdeal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, all of whose entries are real, both programs end with the same
    result: the kernel program's `kernelResult` is the reference's `referenceResult` because the two arrangements of
    the score agree on real entries. -/
theorem algebraic : Cert.algebraic_KernelIdeal_ReferenceIdeal := by
  intro m ρ m' ρ' hpre hagree
  refine ⟨fun c => Cert.AttentionSpec.referenceResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelValue.run m ρ)
    obtain ⟨h0, h1, h2, _⟩ := Cert.FiniteInputs.real_of_pre m hpre c
    exact Cert.AttentionSpec.kernelResult_eq_referenceResult _ _ _ _ fun b i p =>
      Cert.ScoreLaw.scoreKer_eq_scoreRef _ _ _ (fun q d => h0 (ix4 b i q d)) (fun o d => h1 (ix2 o d)) (fun o d => h2 (ix2 o d)) p
  · refine (θ_run Cert.ReferenceIdeal.defs _ _).mono (fun _ h c => ⟨?_, (h c).2⟩)
      (Cert.ReferenceIdeal.Value.run (F := Ideal) m' ρ')
    refine (((h c).1.trans (Cert.ReferenceIdeal.Read.val_main_v20_eq _ _ _ _)).trans
      (Cert.ReferenceValue.reference_value _ _ _ _)).trans ?_
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
